-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part7 {F : FTy → Type} [FloatOps F] (main_arg25 : FVec F S256x256 .f32) (main_arg26 : FVec F S256 .f32) (main_v118 : IVec S_ 1) (main_v119 : FVec F S256x256 .f32) : IVec S_ 1 :=
  let main_cst_46 : FVec F S_ .f32 := constant S_ .f32 0x7F800000#32
  let main_v120 : FVec F S256x256 .f32 := broadcastInDim S256x256 ![] bcast_S_S256x256 main_cst_46
  let main_v121 : IVec S256x256 1 := cmpf .olt main_v119 main_v120
  let main_c_47 : IVec S_ 1 := constantI S_ 1 1#1
  let main_v122 : IVec S_ 1 := (fun x v => Host.reduce IntOp.andi x v reducesTo_S256x256_S_d0_1 h_S_) main_v121 main_c_47
  let main_v123 : IVec S_ 1 := andi main_v118 main_v122
  let main_v124 : FVec F S256x256 .f32 := Host.absf main_arg25
  let main_cst_48 : FVec F S_ .f32 := constant S_ .f32 0x7F800000#32
  let main_v125 : FVec F S256x256 .f32 := broadcastInDim S256x256 ![] bcast_S_S256x256 main_cst_48
  let main_v126 : IVec S256x256 1 := cmpf .olt main_v124 main_v125
  let main_c_49 : IVec S_ 1 := constantI S_ 1 1#1
  let main_v127 : IVec S_ 1 := (fun x v => Host.reduce IntOp.andi x v reducesTo_S256x256_S_d0_1 h_S_) main_v126 main_c_49
  let main_v128 : IVec S_ 1 := andi main_v123 main_v127
  let main_v129 : FVec F S256 .f32 := Host.absf main_arg26
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  main_v133

def fn_part6 {F : FTy → Type} [FloatOps F] (main_arg21 : FVec F S256x256 .f32) (main_arg22 : FVec F S256 .f32) (main_arg23 : FVec F S256x256 .f32) (main_arg24 : FVec F S256x256 .f32) (main_arg25 : FVec F S256x256 .f32) (main_arg26 : FVec F S256 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256x256 .f32 := Host.absf main_arg21
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x256 .f32 := Host.absf main_arg23
  let main_cst_44 : FVec F S_ .f32 := constant S_ .f32 0x7F800000#32
  let main_v115 : FVec F S256x256 .f32 := broadcastInDim S256x256 ![] bcast_S_S256x256 main_cst_44
  let main_v116 : IVec S256x256 1 := cmpf .olt main_v114 main_v115
  let main_c_45 : IVec S_ 1 := constantI S_ 1 1#1
  let main_v117 : IVec S_ 1 := (fun x v => Host.reduce IntOp.andi x v reducesTo_S256x256_S_d0_1 h_S_) main_v116 main_c_45
  let main_v118 : IVec S_ 1 := andi main_v113 main_v117
  let main_v119 : FVec F S256x256 .f32 := Host.absf main_arg24
  fn_part7 (F := F) main_arg25 main_arg26 main_v118 main_v119

def fn_part5 {F : FTy → Type} [FloatOps F] (main_arg18 : FVec F S256x256 .f32) (main_arg19 : FVec F S256x256 .f32) (main_arg20 : FVec F S256x256 .f32) (main_arg21 : FVec F S256x256 .f32) (main_arg22 : FVec F S256 .f32) (main_arg23 : FVec F S256x256 .f32) (main_arg24 : FVec F S256x256 .f32) (main_arg25 : FVec F S256x256 .f32) (main_arg26 : FVec F S256 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256x256 .f32 := Host.absf main_arg18
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256x256 .f32 := Host.absf main_arg19
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S256x256 .f32) (main_arg15 : FVec F S256x256 .f32) (main_arg16 : FVec F S256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256 .f32) (main_arg23 : FVec F S256x256 .f32) (main_arg24 : FVec F S256x256 .f32) (main_arg25 : FVec F S256x256 .f32) (main_arg26 : FVec F S256 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S256x256 .f32) (main_arg12 : FVec F S256x256 .f32) (main_arg13 : FVec F S256x256 .f32) (main_arg14 : FVec F S256x256 .f32) (main_arg15 : FVec F S256x256 .f32) (main_arg16 : FVec F S256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256 .f32) (main_arg23 : FVec F S256x256 .f32) (main_arg24 : FVec F S256x256 .f32) (main_arg25 : FVec F S256x256 .f32) (main_arg26 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S256x256 .f32) (main_arg8 : FVec F S256x256 .f32) (main_arg9 : FVec F S256x256 .f32) (main_arg10 : FVec F S256 .f32) (main_arg11 : FVec F S256x256 .f32) (main_arg12 : FVec F S256x256 .f32) (main_arg13 : FVec F S256x256 .f32) (main_arg14 : FVec F S256x256 .f32) (main_arg15 : FVec F S256x256 .f32) (main_arg16 : FVec F S256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256 .f32) (main_arg23 : FVec F S256x256 .f32) (main_arg24 : FVec F S256x256 .f32) (main_arg25 : FVec F S256x256 .f32) (main_arg26 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S256x256 .f32) (main_arg5 : FVec F S256x256 .f32) (main_arg6 : FVec F S256 .f32) (main_arg7 : FVec F S256x256 .f32) (main_arg8 : FVec F S256x256 .f32) (main_arg9 : FVec F S256x256 .f32) (main_arg10 : FVec F S256 .f32) (main_arg11 : FVec F S256x256 .f32) (main_arg12 : FVec F S256x256 .f32) (main_arg13 : FVec F S256x256 .f32) (main_arg14 : FVec F S256x256 .f32) (main_arg15 : FVec F S256x256 .f32) (main_arg16 : FVec F S256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256 .f32) (main_arg23 : FVec F S256x256 .f32) (main_arg24 : FVec F S256x256 .f32) (main_arg25 : FVec F S256x256 .f32) (main_arg26 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S65536x256 .f32) (main_arg1 : FVec F S65536x256 .f32) (main_arg2 : FVec F S65536x256 .f32) (main_arg3 : FVec F S256x256 .f32) (main_arg4 : FVec F S256x256 .f32) (main_arg5 : FVec F S256x256 .f32) (main_arg6 : FVec F S256 .f32) (main_arg7 : FVec F S256x256 .f32) (main_arg8 : FVec F S256x256 .f32) (main_arg9 : FVec F S256x256 .f32) (main_arg10 : FVec F S256 .f32) (main_arg11 : FVec F S256x256 .f32) (main_arg12 : FVec F S256x256 .f32) (main_arg13 : FVec F S256x256 .f32) (main_arg14 : FVec F S256x256 .f32) (main_arg15 : FVec F S256x256 .f32) (main_arg16 : FVec F S256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256 .f32) (main_arg23 : FVec F S256x256 .f32) (main_arg24 : FVec F S256x256 .f32) (main_arg25 : FVec F S256x256 .f32) (main_arg26 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S65536x256 : Shape := ⟨2, ![65536, 256]⟩
abbrev S256x256 : Shape := ⟨2, ![256, 256]⟩
abbrev S256 : Shape := ⟨1, ![256]⟩
abbrev S256x1024 : Shape := ⟨2, ![256, 1024]⟩
abbrev S768x1024 : Shape := ⟨2, ![768, 1024]⟩
abbrev S256x512 : Shape := ⟨2, ![256, 512]⟩
abbrev S512x512 : Shape := ⟨2, ![512, 512]⟩
abbrev S1024x256 : Shape := ⟨2, ![1024, 256]⟩
abbrev S1024x768 : Shape := ⟨2, ![1024, 768]⟩
abbrev S1024x1024 : Shape := ⟨2, ![1024, 1024]⟩
abbrev S1x256 : Shape := ⟨2, ![1, 256]⟩
abbrev S1024x512 : Shape := ⟨2, ![1024, 512]⟩
abbrev S2048x256 : Shape := ⟨2, ![2048, 256]⟩

abbrev nBuf : Space → Nat
  | .hbm => 46
  | .vmem => 18
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S256, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S256, .f32⟩
  | .hbm, ⟨27, _⟩ => ⟨S256x1024, .f32⟩
  | .hbm, ⟨28, _⟩ => ⟨S256x1024, .bf16⟩
  | .hbm, ⟨29, _⟩ => ⟨S256x1024, .f32⟩
  | .hbm, ⟨30, _⟩ => ⟨S256x1024, .bf16⟩
  | .hbm, ⟨31, _⟩ => ⟨S256x1024, .f32⟩
  | .hbm, ⟨32, _⟩ => ⟨S256x1024, .bf16⟩
  | .hbm, ⟨33, _⟩ => ⟨S768x1024, .bf16⟩
  | .hbm, ⟨34, _⟩ => ⟨S256x512, .f32⟩
  | .hbm, ⟨35, _⟩ => ⟨S256x512, .bf16⟩
  | .hbm, ⟨36, _⟩ => ⟨S256x512, .f32⟩
  | .hbm, ⟨37, _⟩ => ⟨S256x512, .bf16⟩
  | .hbm, ⟨38, _⟩ => ⟨S512x512, .bf16⟩
  | .hbm, ⟨39, _⟩ => ⟨S256x256, .bf16⟩
  | .hbm, ⟨40, _⟩ => ⟨S256x256, .bf16⟩
  | .hbm, ⟨41, _⟩ => ⟨S256x256, .bf16⟩
  | .hbm, ⟨42, _⟩ => ⟨S65536x256, .bf16⟩
  | .hbm, ⟨43, _⟩ => ⟨S65536x256, .bf16⟩
  | .hbm, ⟨44, _⟩ => ⟨S65536x256, .bf16⟩
  | .hbm, ⟨45, _⟩ => ⟨S65536x256, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S768x1024, .bf16⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S512x512, .bf16⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S256, .f32⟩
  | .local _ .vmem, ⟨16, _⟩ => ⟨S1024x256, .f32⟩
  | .local _ .vmem, ⟨17, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  concatenates_S256x256_S256x256_S256x256_S256x256_S256x1024_d1 : Shape.Concatenates [S256x256, S256x256, S256x256, S256x256] S256x1024 1
  bitsLt_bf16_f32 : FTy.bits .bf16 < FTy.bits .f32
  concatenates_S256x1024_S256x1024_S256x1024_S768x1024_d0 : Shape.Concatenates [S256x1024, S256x1024, S256x1024] S768x1024 0
  concatenates_S256x256_S256x256_S256x512_d1 : Shape.Concatenates [S256x256, S256x256] S256x512 1
  concatenates_S256x512_S256x512_S512x512_d0 : Shape.Concatenates [S256x512, S256x512] S512x512 0
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  concatenates_S1024x256_S1024x256_S1024x256_S1024x768_d1 : Shape.Concatenates [S1024x256, S1024x256, S1024x256] S1024x768 1
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  concatenates_S1024x256_S1024x256_S1024x512_d1 : Shape.Concatenates [S1024x256, S1024x256] S1024x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S1024x512_o0_0_S1024x256 : S1024x512.Slices ![0, 0] S1024x256
  slices_S1024x512_o0_256_S1024x256 : S1024x512.Slices ![0, 256] S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  concatenates_S1024x256_S1024x256_S2048x256_d0 : Shape.Concatenates [S1024x256, S1024x256] S2048x256 0
  slices_S2048x256_o0_0_S1024x256 : S2048x256.Slices ![0, 0] S1024x256
  slices_S2048x256_o1024_0_S1024x256 : S2048x256.Slices ![1024, 0] S1024x256
  dot_S1024x768_S768x1024_S1024x1024_1_0_0_1_n_n_wf : DotDims.WF S1024x768 S768x1024 S1024x1024 [1] [0] [0] [1] [] []
  dot_S1024x512_S512x512_S1024x512_1_0_0_1_n_n_wf : DotDims.WF S1024x512 S512x512 S1024x512 [1] [0] [0] [1] [] []
  dot_S1024x256_S256x256_S1024x256_1_0_0_1_n_n_wf : DotDims.WF S1024x256 S256x256 S1024x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .bf16 = 32 ∨ (Rect.block (s := S65536x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .bf16 = 32 ∨ (Rect.block (s := S65536x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .bf16 = 32 ∨ (Rect.block (s := S65536x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1024.size a ≤ S768x1024.size a
  hwx0_3 : ∀ i : grid0.Coords, EltTy.bits .bf16 = 32 ∨ (Rect.block (s := S768x1024) S768x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x256.size a ≤ S65536x256.size a
  hwx0_13 : ∀ i : grid0.Coords, EltTy.bits .f32 = 32 ∨ (Rect.block (s := S65536x256) S1024x256.size (cc0_transform_13 i) (hinb0_13 i)).WholeWords (EltTy.packing .f32)

variable [Facts₀]

def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v15) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S768x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg16) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg22) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg26) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1024x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 144
  | .vmem => 0
  | .smem => 0
  | _ => 0

abbrev hbmTy0_0 (i : Nat) : BufTy := match i % 128 with
  | 0 => ⟨S65536x256, .f32⟩
  | 1 => ⟨S65536x256, .f32⟩
  | 2 => ⟨S65536x256, .f32⟩
  | 3 => ⟨S256x256, .f32⟩
  | 4 => ⟨S256x256, .f32⟩
  | 5 => ⟨S256x256, .f32⟩
  | 6 => ⟨S256, .f32⟩
  | 7 => ⟨S256x256, .f32⟩
  | 8 => ⟨S256x256, .f32⟩
  | 9 => ⟨S256x256, .f32⟩
  | 10 => ⟨S256, .f32⟩
  | 11 => ⟨S256x256, .f32⟩
  | 12 => ⟨S256x256, .f32⟩
  | 13 => ⟨S256x256, .f32⟩
  | 14 => ⟨S256x256, .f32⟩
  | 15 => ⟨S256x256, .f32⟩
  | 16 => ⟨S256, .f32⟩
  | 17 => ⟨S256x256, .f32⟩
  | 18 => ⟨S256x256, .f32⟩
  | 19 => ⟨S256x256, .f32⟩
  | 20 => ⟨S256x256, .f32⟩
  | 21 => ⟨S256x256, .f32⟩
  | 22 => ⟨S256, .f32⟩
  | 23 => ⟨S256x256, .f32⟩
  | 24 => ⟨S256x256, .f32⟩
  | 25 => ⟨S256x256, .f32⟩
  | 26 => ⟨S256, .f32⟩
  | 27 => ⟨S65536x256, .f32⟩
  | 28 => ⟨S65536x256, .f32⟩
  | 29 => ⟨S65536x256, .f32⟩
  | 30 => ⟨S65536x256, .f32⟩
  | 31 => ⟨S65536x256, .f32⟩
  | 32 => ⟨S1x256, .f32⟩
  | 33 => ⟨S65536x256, .f32⟩
  | 34 => ⟨S65536x256, .f32⟩
  | 35 => ⟨S65536x256, .f32⟩
  | 36 => ⟨S65536x256, .f32⟩
  | 37 => ⟨S_, .f32⟩
  | 38 => ⟨S65536x256, .f32⟩
  | 39 => ⟨S65536x256, .f32⟩
  | 40 => ⟨S_, .f32⟩
  | 41 => ⟨S65536x256, .f32⟩
  | 42 => ⟨S65536x256, .f32⟩
  | 43 => ⟨S65536x256, .f32⟩
  | 44 => ⟨S65536x256, .f32⟩
  | 45 => ⟨S65536x256, .f32⟩
  | 46 => ⟨S65536x256, .f32⟩
  | 47 => ⟨S65536x256, .f32⟩
  | 48 => ⟨S65536x256, .f32⟩
  | 49 => ⟨S1x256, .f32⟩
  | 50 => ⟨S65536x256, .f32⟩
  | 51 => ⟨S65536x256, .f32⟩
  | 52 => ⟨S65536x256, .f32⟩
  | 53 => ⟨S65536x256, .f32⟩
  | 54 => ⟨S_, .f32⟩
  | 55 => ⟨S65536x256, .f32⟩
  | 56 => ⟨S65536x256, .f32⟩
  | 57 => ⟨S_, .f32⟩
  | 58 => ⟨S65536x256, .f32⟩
  | 59 => ⟨S65536x256, .f32⟩
  | 60 => ⟨S65536x256, .f32⟩
  | 61 => ⟨S65536x256, .f32⟩
  | 62 => ⟨S65536x256, .f32⟩
  | 63 => ⟨S65536x256, .f32⟩
  | 64 => ⟨S65536x256, .f32⟩
  | 65 => ⟨S65536x256, .f32⟩
  | 66 => ⟨S65536x256, .f32⟩
  | 67 => ⟨S65536x256, .f32⟩
  | 68 => ⟨S65536x256, .f32⟩
  | 69 => ⟨S65536x256, .f32⟩
  | 70 => ⟨S1x256, .f32⟩
  | 71 => ⟨S65536x256, .f32⟩
  | 72 => ⟨S65536x256, .f32⟩
  | 73 => ⟨S65536x256, .f32⟩
  | 74 => ⟨S65536x256, .f32⟩
  | 75 => ⟨S_, .f32⟩
  | 76 => ⟨S65536x256, .f32⟩
  | 77 => ⟨S65536x256, .f32⟩
  | 78 => ⟨S_, .f32⟩
  | 79 => ⟨S65536x256, .f32⟩
  | 80 => ⟨S65536x256, .f32⟩
  | 81 => ⟨S65536x256, .f32⟩
  | 82 => ⟨S65536x256, .f32⟩
  | 83 => ⟨S65536x256, .f32⟩
  | 84 => ⟨S65536x256, .f32⟩
  | 85 => ⟨S65536x256, .f32⟩
  | 86 => ⟨S65536x256, .f32⟩
  | 87 => ⟨S65536x256, .f32⟩
  | 88 => ⟨S65536x256, .f32⟩
  | 89 => ⟨S65536x256, .f32⟩
  | 90 => ⟨S1x256, .f32⟩
  | 91 => ⟨S65536x256, .f32⟩
  | 92 => ⟨S65536x256, .f32⟩
  | 93 => ⟨S65536x256, .f32⟩
  | 94 => ⟨S65536x256, .f32⟩
  | 95 => ⟨S_, .f32⟩
  | 96 => ⟨S65536x256, .f32⟩
  | 97 => ⟨S65536x256, .f32⟩
  | 98 => ⟨S_, .f32⟩
  | 99 => ⟨S65536x256, .f32⟩
  | 100 => ⟨S65536x256, .f32⟩
  | 101 => ⟨S65536x256, .f32⟩
  | 102 => ⟨S1x256, .f32⟩
  | 103 => ⟨S65536x256, .f32⟩
  | 104 => ⟨S65536x256, .f32⟩
  | 105 => ⟨S65536x256, .f32⟩
  | 106 => ⟨S65536x256, .f32⟩
  | 107 => ⟨S65536x256, .f32⟩
  | 108 => ⟨S65536x256, .f32⟩
  | 109 => ⟨S65536x256, .f32⟩
  | 110 => ⟨S65536x256, .f32⟩
  | 111 => ⟨S65536x256, .f32⟩
  | 112 => ⟨S65536x256, .f32⟩
  | 113 => ⟨S65536x256, .f32⟩
  | 114 => ⟨S65536x256, .f32⟩
  | 115 => ⟨S65536x256, .f32⟩
  | 116 => ⟨S65536x256, .f32⟩
  | 117 => ⟨S65536x256, .f32⟩
  | 118 => ⟨S65536x256, .f32⟩
  | 119 => ⟨S65536x256, .f32⟩
  | 120 => ⟨S65536x256, .f32⟩
  | 121 => ⟨S65536x256, .f32⟩
  | 122 => ⟨S65536x256, .f32⟩
  | 123 => ⟨S_, .f32⟩
  | 124 => ⟨S65536x256, .f32⟩
  | 125 => ⟨S65536x256, .f32⟩
  | 126 => ⟨S65536x256, .f32⟩
  | 127 => ⟨S65536x256, .f32⟩
  | _ => ⟨S65536x256, .f32⟩

abbrev hbmTy0_1 (i : Nat) : BufTy := match i % 128 with
  | 0 => ⟨S65536x256, .f32⟩
  | 1 => ⟨S_, .f32⟩
  | 2 => ⟨S65536x256, .f32⟩
  | 3 => ⟨S65536x256, .f32⟩
  | 4 => ⟨S65536x256, .f32⟩
  | 5 => ⟨S65536x256, .f32⟩
  | 6 => ⟨S65536x256, .f32⟩
  | 7 => ⟨S_, .f32⟩
  | 8 => ⟨S65536x256, .f32⟩
  | 9 => ⟨S65536x256, .f32⟩
  | 10 => ⟨S_, .f32⟩
  | 11 => ⟨S65536x256, .f32⟩
  | 12 => ⟨S65536x256, .f32⟩
  | 13 => ⟨S65536x256, .f32⟩
  | 14 => ⟨S65536x256, .f32⟩
  | 15 => ⟨S65536x256, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst : Ref sig .tc := ⟨.hbm, 37, rfl⟩
abbrev main_v10 : Ref sig .tc := ⟨.hbm, 38, rfl⟩
abbrev main_v11 : Ref sig .tc := ⟨.hbm, 39, rfl⟩
abbrev main_cst_0 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_1 : Ref sig .tc := ⟨.hbm, 54, rfl⟩
abbrev main_v25 : Ref sig .tc := ⟨.hbm, 55, rfl⟩
abbrev main_v26 : Ref sig .tc := ⟨.hbm, 56, rfl⟩
abbrev main_cst_2 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_3 : Ref sig .tc := ⟨.hbm, 75, rfl⟩
abbrev main_v44 : Ref sig .tc := ⟨.hbm, 76, rfl⟩
abbrev main_v45 : Ref sig .tc := ⟨.hbm, 77, rfl⟩
abbrev main_cst_4 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_5 : Ref sig .tc := ⟨.hbm, 95, rfl⟩
abbrev main_v62 : Ref sig .tc := ⟨.hbm, 96, rfl⟩
abbrev main_v63 : Ref sig .tc := ⟨.hbm, 97, rfl⟩
abbrev main_cst_6 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_7 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_8 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_9 : Ref sig .tc := ⟨.hbm, 135, rfl⟩
abbrev main_v98 : Ref sig .tc := ⟨.hbm, 136, rfl⟩
abbrev main_v99 : Ref sig .tc := ⟨.hbm, 137, rfl⟩
abbrev main_cst_10 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  dot_S65536x256_S256x256_S65536x256_1_0_0_1_n_n_wf : DotDims.WF S65536x256 S256x256 S65536x256 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.FrameKernel.lean ====
/-
  The frame of `Kernel`'s @main: eighteen host operations (column- and row-wise concatenations of the weight matrices
  and changes of float format) and then one pipelined region of 64 grid points. At each point the body loads the
  three 1024×256 row blocks and the ten resident operands whole, computes, and stores one 1024×256 block.
  Stated here: what the arrays hold when the region is entered (`V`), each window's block at a point (`iblk`),
  what the body leaves in the output's staging buffer (`out13`: the canon of its one store over the payloads),
  the body's triple, the proof data, the run to the frame post, and the frame claim: every argument array ends
  as launched, since no host operation and no window writes one.
-/
import proofs.«137307_j30425548325390_2_alg».proof.Proof.Gen.Kernel.Launch
import proofs.«137307_j30425548325390_2_alg».proof.Proof.Gen.Kernel.Skeleton
import proofs.«137307_j30425548325390_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the eighteen host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 21: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 22: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 23: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 24: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 25: the region finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 26: the region finds it as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post gives the frame
    claim's post: an argument a window stages is an input window's array, which no body writes; any other argument is
    an unscoped buffer outside the pipeline; and neither was written by a host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 4).trans (((dats 0 c).arrAt_in 4 rfl _).trans ((hA c 4).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 5).trans (((dats 0 c).arrAt_in 5 rfl _).trans ((hA c 5).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 6).trans (((dats 0 c).arrAt_in 6 rfl _).trans ((hA c 6).trans (V_main_arg16 m c))),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).1 7).trans (((dats 0 c).arrAt_in 7 rfl _).trans ((hA c 7).trans (V_main_arg22 m c))),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).1 12).trans (((dats 0 c).arrAt_in 12 rfl _).trans ((hA c 12).trans (V_main_arg26 m c)))⟩) h

/-! ## The body's accesses: every load and the one store take the whole buffer -/

abbrev rA : Rect S1024x256 := Rect.unit (s := S1024x256) ![0, 0] S1024x256.size inb_S1024x256_S1024x256_0_0
abbrev rB : Rect S768x1024 := Rect.unit (s := S768x1024) ![0, 0] S768x1024.size inb_S768x1024_S768x1024_0_0
abbrev rC : Rect S256 := Rect.unit (s := S256) ![0] S256.size inb_S256_S256_0
abbrev rD : Rect S512x512 := Rect.unit (s := S512x512) ![0, 0] S512x512.size inb_S512x512_S512x512_0_0
abbrev rE : Rect S256x256 := Rect.unit (s := S256x256) ![0, 0] S256x256.size inb_S256x256_S256x256_0_0

/-! ## What the body leaves in the output window's buffer -/

/-- The body's stored value from the thirteen input buffers' contents: the payloads composed as the body composes
    them (the two gates' stage, then the tail). -/
def pay13 (x0 : Vec F S1024x256 .bf16) (x1 : Vec F S1024x256 .bf16) (x2 : Vec F S1024x256 .bf16) (x3 : Vec F S768x1024 .bf16) (x4 : Vec F S256 .f32) (x5 : Vec F S256 .f32) (x6 : Vec F S256 .f32) (x7 : Vec F S256 .f32) (x8 : Vec F S512x512 .bf16) (x9 : Vec F S256x256 .bf16) (x10 : Vec F S256x256 .bf16) (x11 : Vec F S256x256 .bf16) (x12 : Vec F S256 .f32) : Vec F S1024x256 .f32 :=
  k0_pay1 (k0_pay17 (k0_pay2 (View.ld x0 rA)) (k0_pay3 (View.ld x1 rA)) (k0_pay4 (View.ld x2 rA)) (k0_pay6 (View.ld x0 rA) (View.ld x1 rA) (View.ld x2 rA) (View.ld x3 rB) (View.ld x4 rC)) (k0_pay7 (View.ld x0 rA) (View.ld x1 rA) (View.ld x2 rA) (View.ld x3 rB) (View.ld x5 rC)) (k0_pay9 (View.ld x0 rA) (View.ld x1 rA) (View.ld x2 rA) (View.ld x3 rB) (View.ld x4 rC) (View.ld x5 rC) (View.ld x8 rD) (View.ld x6 rC)) (k0_pay10 (View.ld x0 rA) (View.ld x1 rA) (View.ld x2 rA) (View.ld x3 rB) (View.ld x4 rC) (View.ld x5 rC) (View.ld x8 rD)) (View.ld x7 rC) (View.ld x9 rE) (View.ld x12 rC) (View.ld x10 rE) (View.ld x11 rE)) (k0_pay18 (k0_pay10 (View.ld x0 rA) (View.ld x1 rA) (View.ld x2 rA) (View.ld x3 rB) (View.ld x4 rC) (View.ld x5 rC) (View.ld x8 rD)) (View.ld x7 rC)) (k0_pay19 (k0_pay2 (View.ld x0 rA)) (k0_pay3 (View.ld x1 rA)) (k0_pay4 (View.ld x2 rA)) (k0_pay6 (View.ld x0 rA) (View.ld x1 rA) (View.ld x2 rA) (View.ld x3 rB) (View.ld x4 rC)) (k0_pay7 (View.ld x0 rA) (View.ld x1 rA) (View.ld x2 rA) (View.ld x3 rB) (View.ld x5 rC)) (k0_pay9 (View.ld x0 rA) (View.ld x1 rA) (View.ld x2 rA) (View.ld x3 rB) (View.ld x4 rC) (View.ld x5 rC) (View.ld x8 rD) (View.ld x6 rC)) (View.ld x9 rE) (View.ld x12 rC) (View.ld x10 rE) (View.ld x11 rE))

/-- The output's staging buffer after the body: its one store, which takes the whole buffer. -/
def out13 (x0 : Vec F S1024x256 .bf16) (x1 : Vec F S1024x256 .bf16) (x2 : Vec F S1024x256 .bf16) (x3 : Vec F S768x1024 .bf16) (x4 : Vec F S256 .f32) (x5 : Vec F S256 .f32) (x6 : Vec F S256 .f32) (x7 : Vec F S256 .f32) (x8 : Vec F S512x512 .bf16) (x9 : Vec F S256x256 .bf16) (x10 : Vec F S256x256 .bf16) (x11 : Vec F S256x256 .bf16) (x12 : Vec F S256 .f32) : Vec F S1024x256 .f32 :=
  View.canon [⟨rA, pay13 x0 x1 x2 x3 x4 x5 x6 x7 x8 x9 x10 x11 x12⟩]

/-- The one store covers the buffer. -/
theorem cover13 (p0 : Vec F S1024x256 .f32) (y : S1024x256.Idx) :
    ∃ pc ∈ ([⟨rA, p0⟩] : List (View.Piece (Elt F) S1024x256 .f32)), y ∈ pc.1.set :=
  View.cover_of_tiled [⟨rA, p0⟩] S1024x256.size (by rfl) y

/-! ## The body's triple -/

set_option maxHeartbeats 4000000 in
/-- The kernel body on whole staging memrefs, the inputs' at contents `xW` and the output's at anything, runs to the
    continuation holding the inputs' as they were and the output's at `out13` of the inputs'. -/
theorem sound_kernel (c : Dev nD) (E : Set ℕ) (i : grid0.Coords) (arg0 : Memref sig .tc .vmem S1024x256 .bf16) (harg0 : arg0.IsWhole) (arg1 : Memref sig .tc .vmem S1024x256 .bf16) (harg1 : arg1.IsWhole) (arg2 : Memref sig .tc .vmem S1024x256 .bf16) (harg2 : arg2.IsWhole) (arg3 : Memref sig .tc .vmem S768x1024 .bf16) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S512x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S256 .f32) (harg12 : arg12.IsWhole) (arg13 : Memref sig .tc .vmem S1024x256 .f32) (harg13 : arg13.IsWhole)
    (x0 : Vec F S1024x256 .bf16) (x1 : Vec F S1024x256 .bf16) (x2 : Vec F S1024x256 .bf16) (x3 : Vec F S768x1024 .bf16) (x4 : Vec F S256 .f32) (x5 : Vec F S256 .f32) (x6 : Vec F S256 .f32) (x7 : Vec F S256 .f32) (x8 : Vec F S512x512 .bf16) (x9 : Vec F S256x256 .bf16) (x10 : Vec F S256x256 .bf16) (x11 : Vec F S256x256 .bf16) (x12 : Vec F S256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (out13 x0 x1 x2 x3 x4 x5 x6 x7 x8 x9 x10 x11 x12)) -∗ K ⟨⟩))
      ⊢ wp frame (wpE (defs₀ (F := F)) Variants.none c none) E (cc0__gdu_kernel i arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__gdu_kernel_eq_skeleton]; unfold cc0__gdu_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  exact View.read_writes_eq_canon _ _ _ (cover13 _)

/-! ## The pipeline's proof data -/

/-- The proof data of the pipeline on core `c`: the arrays as the region finds them; after the body at point `t` each
    input's buffer at its block and the output's at `out13` of the input blocks; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ (dats m) (A_eq m) (run_main m ρ)

end Cert.Kernel.Fr

end
-- ==== Proof.FrameKernelIdeal.lean ====
/-
  The frame of `KernelIdeal`'s @main: eighteen host operations (column- and row-wise concatenations of the weight matrices
  and changes of float format) and then one pipelined region of 64 grid points. At each point the body loads the
  three 1024×256 row blocks and the ten resident operands whole, computes, and stores one 1024×256 block.
  Stated here: what the arrays hold when the region is entered (`V`), each window's block at a point (`iblk`),
  what the body leaves in the output's staging buffer (`out13`: the canon of its one store over the payloads),
  the body's triple, the proof data, the run to the frame post, and the frame claim: every argument array ends
  as launched, since no host operation and no window writes one.
-/
import proofs.«137307_j30425548325390_2_alg».proof.Proof.Gen.KernelIdeal.Launch
import proofs.«137307_j30425548325390_2_alg».proof.Proof.Gen.KernelIdeal.Skeleton
import proofs.«137307_j30425548325390_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the eighteen host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 21: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 22: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 23: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 24: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 25: the region finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 26: the region finds it as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post gives the frame
    claim's post: an argument a window stages is an input window's array, which no body writes; any other argument is
    an unscoped buffer outside the pipeline; and neither was written by a host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 4).trans (((dats 0 c).arrAt_in 4 rfl _).trans ((hA c 4).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 5).trans (((dats 0 c).arrAt_in 5 rfl _).trans ((hA c 5).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 6).trans (((dats 0 c).arrAt_in 6 rfl _).trans ((hA c 6).trans (V_main_arg16 m c))),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).1 7).trans (((dats 0 c).arrAt_in 7 rfl _).trans ((hA c 7).trans (V_main_arg22 m c))),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).1 12).trans (((dats 0 c).arrAt_in 12 rfl _).trans ((hA c 12).trans (V_main_arg26 m c)))⟩) h

/-! ## The body's accesses: every load and the one store take the whole buffer -/

abbrev rA : Rect S1024x256 := Rect.unit (s := S1024x256) ![0, 0] S1024x256.size inb_S1024x256_S1024x256_0_0
abbrev rB : Rect S768x1024 := Rect.unit (s := S768x1024) ![0, 0] S768x1024.size inb_S768x1024_S768x1024_0_0
abbrev rC : Rect S256 := Rect.unit (s := S256) ![0] S256.size inb_S256_S256_0
abbrev rD : Rect S512x512 := Rect.unit (s := S512x512) ![0, 0] S512x512.size inb_S512x512_S512x512_0_0
abbrev rE : Rect S256x256 := Rect.unit (s := S256x256) ![0, 0] S256x256.size inb_S256x256_S256x256_0_0

/-! ## What the body leaves in the output window's buffer -/

/-- The body's stored value from the thirteen input buffers' contents: the payloads composed as the body composes
    them (the two gates' stage, then the tail). -/
def pay13 (x0 : Vec F S1024x256 .bf16) (x1 : Vec F S1024x256 .bf16) (x2 : Vec F S1024x256 .bf16) (x3 : Vec F S768x1024 .bf16) (x4 : Vec F S256 .f32) (x5 : Vec F S256 .f32) (x6 : Vec F S256 .f32) (x7 : Vec F S256 .f32) (x8 : Vec F S512x512 .bf16) (x9 : Vec F S256x256 .bf16) (x10 : Vec F S256x256 .bf16) (x11 : Vec F S256x256 .bf16) (x12 : Vec F S256 .f32) : Vec F S1024x256 .f32 :=
  k0_pay1 (k0_pay17 (k0_pay2 (View.ld x0 rA)) (k0_pay3 (View.ld x1 rA)) (k0_pay4 (View.ld x2 rA)) (k0_pay6 (View.ld x0 rA) (View.ld x1 rA) (View.ld x2 rA) (View.ld x3 rB) (View.ld x4 rC)) (k0_pay7 (View.ld x0 rA) (View.ld x1 rA) (View.ld x2 rA) (View.ld x3 rB) (View.ld x5 rC)) (k0_pay9 (View.ld x0 rA) (View.ld x1 rA) (View.ld x2 rA) (View.ld x3 rB) (View.ld x4 rC) (View.ld x5 rC) (View.ld x8 rD) (View.ld x6 rC)) (k0_pay10 (View.ld x0 rA) (View.ld x1 rA) (View.ld x2 rA) (View.ld x3 rB) (View.ld x4 rC) (View.ld x5 rC) (View.ld x8 rD)) (View.ld x7 rC) (View.ld x9 rE) (View.ld x12 rC) (View.ld x10 rE) (View.ld x11 rE)) (k0_pay18 (k0_pay10 (View.ld x0 rA) (View.ld x1 rA) (View.ld x2 rA) (View.ld x3 rB) (View.ld x4 rC) (View.ld x5 rC) (View.ld x8 rD)) (View.ld x7 rC)) (k0_pay19 (k0_pay2 (View.ld x0 rA)) (k0_pay3 (View.ld x1 rA)) (k0_pay4 (View.ld x2 rA)) (k0_pay6 (View.ld x0 rA) (View.ld x1 rA) (View.ld x2 rA) (View.ld x3 rB) (View.ld x4 rC)) (k0_pay7 (View.ld x0 rA) (View.ld x1 rA) (View.ld x2 rA) (View.ld x3 rB) (View.ld x5 rC)) (k0_pay9 (View.ld x0 rA) (View.ld x1 rA) (View.ld x2 rA) (View.ld x3 rB) (View.ld x4 rC) (View.ld x5 rC) (View.ld x8 rD) (View.ld x6 rC)) (View.ld x9 rE) (View.ld x12 rC) (View.ld x10 rE) (View.ld x11 rE))

/-- The output's staging buffer after the body: its one store, which takes the whole buffer. -/
def out13 (x0 : Vec F S1024x256 .bf16) (x1 : Vec F S1024x256 .bf16) (x2 : Vec F S1024x256 .bf16) (x3 : Vec F S768x1024 .bf16) (x4 : Vec F S256 .f32) (x5 : Vec F S256 .f32) (x6 : Vec F S256 .f32) (x7 : Vec F S256 .f32) (x8 : Vec F S512x512 .bf16) (x9 : Vec F S256x256 .bf16) (x10 : Vec F S256x256 .bf16) (x11 : Vec F S256x256 .bf16) (x12 : Vec F S256 .f32) : Vec F S1024x256 .f32 :=
  View.canon [⟨rA, pay13 x0 x1 x2 x3 x4 x5 x6 x7 x8 x9 x10 x11 x12⟩]

/-- The one store covers the buffer. -/
theorem cover13 (p0 : Vec F S1024x256 .f32) (y : S1024x256.Idx) :
    ∃ pc ∈ ([⟨rA, p0⟩] : List (View.Piece (Elt F) S1024x256 .f32)), y ∈ pc.1.set :=
  View.cover_of_tiled [⟨rA, p0⟩] S1024x256.size (by rfl) y

/-! ## The body's triple -/

set_option maxHeartbeats 4000000 in
/-- The kernel body on whole staging memrefs, the inputs' at contents `xW` and the output's at anything, runs to the
    continuation holding the inputs' as they were and the output's at `out13` of the inputs'. -/
theorem sound_kernel (c : Dev nD) (E : Set ℕ) (i : grid0.Coords) (arg0 : Memref sig .tc .vmem S1024x256 .bf16) (harg0 : arg0.IsWhole) (arg1 : Memref sig .tc .vmem S1024x256 .bf16) (harg1 : arg1.IsWhole) (arg2 : Memref sig .tc .vmem S1024x256 .bf16) (harg2 : arg2.IsWhole) (arg3 : Memref sig .tc .vmem S768x1024 .bf16) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S512x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S256 .f32) (harg12 : arg12.IsWhole) (arg13 : Memref sig .tc .vmem S1024x256 .f32) (harg13 : arg13.IsWhole)
    (x0 : Vec F S1024x256 .bf16) (x1 : Vec F S1024x256 .bf16) (x2 : Vec F S1024x256 .bf16) (x3 : Vec F S768x1024 .bf16) (x4 : Vec F S256 .f32) (x5 : Vec F S256 .f32) (x6 : Vec F S256 .f32) (x7 : Vec F S256 .f32) (x8 : Vec F S512x512 .bf16) (x9 : Vec F S256x256 .bf16) (x10 : Vec F S256x256 .bf16) (x11 : Vec F S256x256 .bf16) (x12 : Vec F S256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (out13 x0 x1 x2 x3 x4 x5 x6 x7 x8 x9 x10 x11 x12)) -∗ K ⟨⟩))
      ⊢ wp frame (wpE (defs₀ (F := F)) Variants.none c none) E (cc0__gdu_kernel i arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__gdu_kernel_eq_skeleton]; unfold cc0__gdu_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  exact View.read_writes_eq_canon _ _ _ (cover13 _)

/-! ## The pipeline's proof data -/

/-- The proof data of the pipeline on core `c`: the arrays as the region finds them; after the body at point `t` each
    input's buffer at its block and the output's at `out13` of the input blocks; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ (dats m) (A_eq m) (run_main m ρ)

end Cert.KernelIdeal.Fr

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.Spec.lean ====
/-
  The gated cell, one batch row at a time, on the extended reals.

  A row of the batch carries three feature vectors x, z, h (256 entries each).  Two gates f and e are logistic
  functions of an affine form of (x, z, h); they damp z and h entrywise into z~ = f·z and h~ = e·h.  Two more gates
  g and r are logistic functions of an affine form of (x, z, h, z~, h~).  Four candidates o1..o4 are hyperbolic
  tangents of  x·Wux + bu  plus one of z·Wuz / z~·Wuz  plus one of h·Wuh / h~·Wuh,  and the result mixes them with
  the weights g·r, (1−g)·r, g·(1−r), (1−g)·(1−r).

  `outRow` spells the result with the sums associated the way a plain left-to-right evaluation associates them, and
  `mix_factored` is the one law used to compare it with a factored evaluation  r·(g·o1 + (1−g)·o2) + (1−r)·(g·o3 +
  (1−g)·o4):  a logistic value is a real number between 0 and 1, so it and its complement to one are nonnegative
  reals, and multiplication by a nonnegative real distributes over every sum of extended reals — no finiteness of
  g or of the candidates is needed.
-/
import Idealize.ShloMosaic.Lib.ValueIdx
import Idealize.ShloMosaic.PureOps.Ideal.Laws
import proofs.«137307_j30425548325390_2_alg».proof.Proof.LibRowDot

noncomputable section

open scoped BigOperators

namespace Cert.Gdu

open Idealize.ShloMosaic Idealize.ShloMosaic.ValueIdx Cert.RowDot

/-- The batch-by-feature shape, the square weight shape and the bias shape. -/
abbrev SB : Shape := ⟨2, ![65536, 256]⟩
abbrev SW : Shape := ⟨2, ![256, 256]⟩
abbrev Sv : Shape := ⟨1, ![256]⟩

abbrev Row := Fin 256 → EReal
abbrev Mat := SW.Idx → EReal
abbrev Bias := Sv.Idx → EReal

/-- The float pattern of 1.0, as both programs write it. -/
def one : EReal := Ideal.ofBits .f32 0x3F800000#32

theorem one_eq : one = 1 := IdealRules.sign_bit.ideal_onePat .f32

/-- The cell's parameters. -/
structure Params where
  Wfx : Mat
  Wfz : Mat
  Wfh : Mat
  bf : Bias
  Wex : Mat
  Wez : Mat
  Weh : Mat
  be : Bias
  Wgx : Mat
  Wgz : Mat
  Wgh : Mat
  Wgzt : Mat
  Wght : Mat
  bg : Bias
  Wrx : Mat
  Wrz : Mat
  Wrh : Mat
  Wrzt : Mat
  Wrht : Mat
  br : Bias
  Wux : Mat
  Wuz : Mat
  Wuh : Mat
  bu : Bias

/-- The logistic function as a quotient with the pattern of one:  one / (one + e^(−a)). -/
def sig (a : EReal) : EReal := Ideal.div one (one + Ideal.exp (-a))

theorem sig_eq (a : EReal) : sig a = Ideal.logistic a := by
  unfold sig Ideal.logistic; rw [one_eq]

/-- A gate of three terms and a bias. -/
def gate3 (Wx Wz Wh : Mat) (b : Bias) (x z h : Row) (j : Fin 256) : EReal :=
  sig (rowDot x Wx j + rowDot z Wz j + rowDot h Wh j + b (ix1 j))

/-- A gate of five terms and a bias. -/
def gate5 (Wx Wz Wh Wzt Wht : Mat) (b : Bias) (x z h zt ht : Row) (j : Fin 256) : EReal :=
  sig (rowDot x Wx j + rowDot z Wz j + rowDot h Wh j + rowDot zt Wzt j + rowDot ht Wht j + b (ix1 j))

variable (P : Params)

def fGate (x z h : Row) : Row := gate3 P.Wfx P.Wfz P.Wfh P.bf x z h
def eGate (x z h : Row) : Row := gate3 P.Wex P.Wez P.Weh P.be x z h
/-- The damped vectors. -/
def zTil (x z h : Row) : Row := fun j => fGate P x z h j * z j
def hTil (x z h : Row) : Row := fun j => eGate P x z h j * h j
def gGate (x z h : Row) : Row := gate5 P.Wgx P.Wgz P.Wgh P.Wgzt P.Wght P.bg x z h (zTil P x z h) (hTil P x z h)
def rGate (x z h : Row) : Row := gate5 P.Wrx P.Wrz P.Wrh P.Wrzt P.Wrht P.br x z h (zTil P x z h) (hTil P x z h)

/-- The shared projection  x·Wux + bu. -/
def ux (x : Row) (j : Fin 256) : EReal := rowDot x P.Wux j + P.bu (ix1 j)

/-- The four candidates: tanh of  ux + (a z-term) + (an h-term). -/
def cand (x zc hc : Row) (j : Fin 256) : EReal := Ideal.tanh (ux P x j + rowDot zc P.Wuz j + rowDot hc P.Wuh j)

/-- The mixture, associated left to right:  g·r·o1 + (one−g)·r·o2 + g·(one−r)·o3 + (one−g)·(one−r)·o4. -/
def mix (g r o1 o2 o3 o4 : EReal) : EReal :=
  g * r * o1 + (one - g) * r * o2 + g * (one - r) * o3 + (one - g) * (one - r) * o4

/-- The same mixture factored by r:  r·(g·o1 + (one−g)·o2) + (one−r)·(g·o3 + (one−g)·o4). -/
def mixF (g r o1 o2 o3 o4 : EReal) : EReal :=
  r * (g * o1 + (one - g) * o2) + (one - r) * (g * o3 + (one - g) * o4)

/-- Entry j of the result row. -/
def outRow (x z h : Row) (j : Fin 256) : EReal :=
  mix (gGate P x z h j) (rGate P x z h j)
    (cand P x (zTil P x z h) (hTil P x z h) j) (cand P x z (hTil P x z h) j)
    (cand P x (zTil P x z h) h j) (cand P x z h j)

/-- The whole result: row (i 0) of the three inputs through `outRow`, at column (i 1). -/
def G (X Z H : SB.Idx → EReal) : SB.Idx → EReal :=
  fun i => outRow P (rowOf X (i 0)) (rowOf Z (i 0)) (rowOf H (i 0)) (i 1)

/-! ## The law between the two mixtures -/

/-- A logistic value is a real number in [0, 1]. -/
theorem sig_real (a : EReal) : ∃ ρ : ℝ, 0 ≤ ρ ∧ ρ ≤ 1 ∧ sig a = (ρ : EReal) := by
  rw [sig_eq]
  induction a with
  | bot => exact ⟨0, le_refl _, zero_le_one, by rw [Ideal.logistic_bot, EReal.coe_zero]⟩
  | top => exact ⟨1, zero_le_one, le_refl _, by rw [Ideal.logistic_top, EReal.coe_one]⟩
  | coe r =>
    have hp : 0 < 1 + Real.exp (-r) := by positivity
    refine ⟨(1 + Real.exp (-r))⁻¹, le_of_lt (inv_pos.mpr hp), ?_, Ideal.logistic_coe _⟩
    exact inv_le_one_of_one_le₀ (by linarith [Real.exp_pos (-r)])

/-- The factored mixture is the left-to-right one whenever r is a logistic value. -/
theorem mix_factored (a : EReal) (g o1 o2 o3 o4 : EReal) :
    mixF g (sig a) o1 o2 o3 o4 = mix g (sig a) o1 o2 o3 o4 := by
  obtain ⟨ρ, h0, h1, hρ⟩ := sig_real a
  have hc : one - (ρ : EReal) = ((1 - ρ : ℝ) : EReal) := by rw [one_eq, ← EReal.coe_one, ← EReal.coe_sub]
  unfold mixF mix
  rw [hρ, hc, EReal.left_distrib_of_nonneg_of_ne_top (EReal.coe_nonneg.mpr h0) (EReal.coe_ne_top ρ),
    EReal.left_distrib_of_nonneg_of_ne_top (EReal.coe_nonneg.mpr (sub_nonneg.mpr h1)) (EReal.coe_ne_top _)]
  simp only [mul_comm, mul_left_comm, mul_assoc, add_assoc]

end Cert.Gdu

end
-- ==== Proof.KPay.lean ====
/-
  The body's arithmetic read one entry at a time, at the exact (extended-real) values.

  The body multiplies the row block [x | z | h] (three 1024×256 blocks side by side) by a 768×1024 panel, so entry
  (p, c) of the product is the sum over 768 positions, which splits into three sums of 256: row p of x, of z and of h
  against the three row bands of the panel.  Reading the product's four column bands gives the three-term parts of the
  four gates; a second product of [z~ | h~] by a 512×512 panel gives the two remaining terms of g and r in the same way.
  The candidates use three 256×256 matrices; two of the products are taken on a block stacked on its damped copy
  (2048 rows), whose upper half is the product of the block and whose lower half that of the damped block.
  Every entry (p, q) of what the body stores depends on row p of the three blocks only.
-/
import proofs.«137307_j30425548325390_2_alg».proof.Proof.Gen.KernelIdeal.Skeleton
import proofs.«137307_j30425548325390_2_alg».proof.Proof.Spec
import Idealize.ShloMosaic.Lib.ValueLayout
import Idealize.ShloMosaic.Lib.Pipeline.Value

set_option maxRecDepth 16384

noncomputable section

open scoped BigOperators

namespace Cert.Gdu.K

open Cert.KernelIdeal Cert.KernelIdeal.Gen Idealize.ShloMosaic Idealize.ShloMosaic.ValueIdx Cert.RowDot Cert.Gdu

/-! ## Sums over 768 and 512 positions in bands of 256 -/

theorem sum768 {M : Type*} [AddCommMonoid M] (F : Fin 768 → M) :
    ∑ k : Fin 768, F k = ∑ k : Fin 256, F ⟨0 + k.val, by omega⟩ + ∑ k : Fin 256, F ⟨256 + k.val, by omega⟩ + ∑ k : Fin 256, F ⟨512 + k.val, by omega⟩ := by
  have h1 := Fin.sum_univ_add (a := 512) (b := 256) F
  have h2 := Fin.sum_univ_add (a := 256) (b := 256) (fun i : Fin 512 => F (Fin.castAdd 256 i))
  rw [h1, h2]
  refine congrArg₂ (· + ·) (congrArg₂ (· + ·) ?_ rfl) rfl
  exact Finset.sum_congr rfl fun k _ => congrArg F (Fin.ext (Nat.zero_add _).symm)

theorem sum512 {M : Type*} [AddCommMonoid M] (F : Fin 512 → M) :
    ∑ k : Fin 512, F k = ∑ k : Fin 256, F ⟨0 + k.val, by omega⟩ + ∑ k : Fin 256, F ⟨256 + k.val, by omega⟩ := by
  rw [Fin.sum_univ_add (a := 256) (b := 256) F]
  refine congrArg₂ (· + ·) ?_ rfl
  exact Finset.sum_congr rfl fun k _ => congrArg F (Fin.ext (Nat.zero_add _).symm)

/-! ## A 256×256 tile of a larger matrix, and a row against a band of it -/

/-- The tile of W whose top-left entry is (ro, co). -/
def sub {K N : Nat} (W : (⟨2, ![K, N]⟩ : Shape).Idx → EReal) (ro co : Nat) (hr : ro + 256 ≤ K) (hc : co + 256 ≤ N) : Mat :=
  fun i => W (ix2 ⟨ro + (i 0).val, by have := idx2_lt0 i; omega⟩ ⟨co + (i 1).val, by have := idx2_lt1 i; omega⟩)

/-- A row of 256 numbers against rows off .. off+255 of W, at column c. -/
def rowDotOff {K N : Nat} (row : Row) (W : (⟨2, ![K, N]⟩ : Shape).Idx → EReal) (off : Nat) (hoff : off + 256 ≤ K) (c : Fin N) : EReal :=
  ∑ k : Fin 256, row k * W (ix2 ⟨off + k.val, by omega⟩ c)

theorem rowDotOff_sub {K N : Nat} (row : Row) (W : (⟨2, ![K, N]⟩ : Shape).Idx → EReal) (ro co : Nat) (hr : ro + 256 ≤ K) (hc : co + 256 ≤ N)
    (j : Fin 256) : rowDotOff row W ro hr ⟨co + j.val, by omega⟩ = rowDot row (sub W ro co hr hc) j := rfl

/-! ## Pieces laid side by side or stacked, read at an index -/

theorem cat3c_0 (u0 : S1024x256.Idx → EReal) (u1 : S1024x256.Idx → EReal) (u2 : S1024x256.Idx → EReal) (h : Shape.Concatenates (([⟨S1024x256, u0⟩, ⟨S1024x256, u1⟩, ⟨S1024x256, u2⟩] : List ((s : Shape) × (s.Idx → EReal))).map (·.1)) S1024x768 1) (p : Fin 1024) (q : Fin 256) :
    concatenate S1024x768 1 [⟨S1024x256, u0⟩, ⟨S1024x256, u1⟩, ⟨S1024x256, u2⟩] h (ix2 p ⟨0 + q.val, by omega⟩) = u0 (ix2 p q) :=
  concatenate_apply_piece (t := S1024x768) (a := 1) (xs := [⟨S1024x256, u0⟩, ⟨S1024x256, u1⟩, ⟨S1024x256, u2⟩]) (h := h) (j := (ix2 p ⟨0 + q.val, by omega⟩)) (k := 0) (hk := by simp) (s₁ := S1024x256) (x₁ := u0) (hxk := rfl) (hr := rfl) (pre := 0) (hpre := rfl) (i := ix2 p q)
    (hi := fun b hb => by match b with | ⟨0, _⟩ => (first | rfl | exact absurd rfl hb) | ⟨1, _⟩ => (first | rfl | exact absurd rfl hb)) (ha := rfl)

theorem cat3c_1 (u0 : S1024x256.Idx → EReal) (u1 : S1024x256.Idx → EReal) (u2 : S1024x256.Idx → EReal) (h : Shape.Concatenates (([⟨S1024x256, u0⟩, ⟨S1024x256, u1⟩, ⟨S1024x256, u2⟩] : List ((s : Shape) × (s.Idx → EReal))).map (·.1)) S1024x768 1) (p : Fin 1024) (q : Fin 256) :
    concatenate S1024x768 1 [⟨S1024x256, u0⟩, ⟨S1024x256, u1⟩, ⟨S1024x256, u2⟩] h (ix2 p ⟨256 + q.val, by omega⟩) = u1 (ix2 p q) :=
  concatenate_apply_piece (t := S1024x768) (a := 1) (xs := [⟨S1024x256, u0⟩, ⟨S1024x256, u1⟩, ⟨S1024x256, u2⟩]) (h := h) (j := (ix2 p ⟨256 + q.val, by omega⟩)) (k := 1) (hk := by simp) (s₁ := S1024x256) (x₁ := u1) (hxk := rfl) (hr := rfl) (pre := 256) (hpre := rfl) (i := ix2 p q)
    (hi := fun b hb => by match b with | ⟨0, _⟩ => (first | rfl | exact absurd rfl hb) | ⟨1, _⟩ => (first | rfl | exact absurd rfl hb)) (ha := rfl)

theorem cat3c_2 (u0 : S1024x256.Idx → EReal) (u1 : S1024x256.Idx → EReal) (u2 : S1024x256.Idx → EReal) (h : Shape.Concatenates (([⟨S1024x256, u0⟩, ⟨S1024x256, u1⟩, ⟨S1024x256, u2⟩] : List ((s : Shape) × (s.Idx → EReal))).map (·.1)) S1024x768 1) (p : Fin 1024) (q : Fin 256) :
    concatenate S1024x768 1 [⟨S1024x256, u0⟩, ⟨S1024x256, u1⟩, ⟨S1024x256, u2⟩] h (ix2 p ⟨512 + q.val, by omega⟩) = u2 (ix2 p q) :=
  concatenate_apply_piece (t := S1024x768) (a := 1) (xs := [⟨S1024x256, u0⟩, ⟨S1024x256, u1⟩, ⟨S1024x256, u2⟩]) (h := h) (j := (ix2 p ⟨512 + q.val, by omega⟩)) (k := 2) (hk := by simp) (s₁ := S1024x256) (x₁ := u2) (hxk := rfl) (hr := rfl) (pre := 512) (hpre := rfl) (i := ix2 p q)
    (hi := fun b hb => by match b with | ⟨0, _⟩ => (first | rfl | exact absurd rfl hb) | ⟨1, _⟩ => (first | rfl | exact absurd rfl hb)) (ha := rfl)

theorem cat2c_0 (u0 : S1024x256.Idx → EReal) (u1 : S1024x256.Idx → EReal) (h : Shape.Concatenates (([⟨S1024x256, u0⟩, ⟨S1024x256, u1⟩] : List ((s : Shape) × (s.Idx → EReal))).map (·.1)) S1024x512 1) (p : Fin 1024) (q : Fin 256) :
    concatenate S1024x512 1 [⟨S1024x256, u0⟩, ⟨S1024x256, u1⟩] h (ix2 p ⟨0 + q.val, by omega⟩) = u0 (ix2 p q) :=
  concatenate_apply_piece (t := S1024x512) (a := 1) (xs := [⟨S1024x256, u0⟩, ⟨S1024x256, u1⟩]) (h := h) (j := (ix2 p ⟨0 + q.val, by omega⟩)) (k := 0) (hk := by simp) (s₁ := S1024x256) (x₁ := u0) (hxk := rfl) (hr := rfl) (pre := 0) (hpre := rfl) (i := ix2 p q)
    (hi := fun b hb => by match b with | ⟨0, _⟩ => (first | rfl | exact absurd rfl hb) | ⟨1, _⟩ => (first | rfl | exact absurd rfl hb)) (ha := rfl)

theorem cat2c_1 (u0 : S1024x256.Idx → EReal) (u1 : S1024x256.Idx → EReal) (h : Shape.Concatenates (([⟨S1024x256, u0⟩, ⟨S1024x256, u1⟩] : List ((s : Shape) × (s.Idx → EReal))).map (·.1)) S1024x512 1) (p : Fin 1024) (q : Fin 256) :
    concatenate S1024x512 1 [⟨S1024x256, u0⟩, ⟨S1024x256, u1⟩] h (ix2 p ⟨256 + q.val, by omega⟩) = u1 (ix2 p q) :=
  concatenate_apply_piece (t := S1024x512) (a := 1) (xs := [⟨S1024x256, u0⟩, ⟨S1024x256, u1⟩]) (h := h) (j := (ix2 p ⟨256 + q.val, by omega⟩)) (k := 1) (hk := by simp) (s₁ := S1024x256) (x₁ := u1) (hxk := rfl) (hr := rfl) (pre := 256) (hpre := rfl) (i := ix2 p q)
    (hi := fun b hb => by match b with | ⟨0, _⟩ => (first | rfl | exact absurd rfl hb) | ⟨1, _⟩ => (first | rfl | exact absurd rfl hb)) (ha := rfl)

theorem cat2r_0 (u0 : S1024x256.Idx → EReal) (u1 : S1024x256.Idx → EReal) (h : Shape.Concatenates (([⟨S1024x256, u0⟩, ⟨S1024x256, u1⟩] : List ((s : Shape) × (s.Idx → EReal))).map (·.1)) S2048x256 0) (p : Fin 1024) (q : Fin 256) :
    concatenate S2048x256 0 [⟨S1024x256, u0⟩, ⟨S1024x256, u1⟩] h (ix2 ⟨0 + p.val, by omega⟩ q) = u0 (ix2 p q) :=
  concatenate_apply_piece (t := S2048x256) (a := 0) (xs := [⟨S1024x256, u0⟩, ⟨S1024x256, u1⟩]) (h := h) (j := (ix2 ⟨0 + p.val, by omega⟩ q)) (k := 0) (hk := by simp) (s₁ := S1024x256) (x₁ := u0) (hxk := rfl) (hr := rfl) (pre := 0) (hpre := rfl) (i := ix2 p q)
    (hi := fun b hb => by match b with | ⟨0, _⟩ => (first | rfl | exact absurd rfl hb) | ⟨1, _⟩ => (first | rfl | exact absurd rfl hb)) (ha := rfl)

theorem cat2r_1 (u0 : S1024x256.Idx → EReal) (u1 : S1024x256.Idx → EReal) (h : Shape.Concatenates (([⟨S1024x256, u0⟩, ⟨S1024x256, u1⟩] : List ((s : Shape) × (s.Idx → EReal))).map (·.1)) S2048x256 0) (p : Fin 1024) (q : Fin 256) :
    concatenate S2048x256 0 [⟨S1024x256, u0⟩, ⟨S1024x256, u1⟩] h (ix2 ⟨1024 + p.val, by omega⟩ q) = u1 (ix2 p q) :=
  concatenate_apply_piece (t := S2048x256) (a := 0) (xs := [⟨S1024x256, u0⟩, ⟨S1024x256, u1⟩]) (h := h) (j := (ix2 ⟨1024 + p.val, by omega⟩ q)) (k := 1) (hk := by simp) (s₁ := S1024x256) (x₁ := u1) (hxk := rfl) (hr := rfl) (pre := 1024) (hpre := rfl) (i := ix2 p q)
    (hi := fun b hb => by match b with | ⟨0, _⟩ => (first | rfl | exact absurd rfl hb) | ⟨1, _⟩ => (first | rfl | exact absurd rfl hb)) (ha := rfl)

/-! ## The products -/

/-- [a | b | c] times a 768×N panel, at (p, j): the three rows against the three bands. -/
theorem matmul_cat3 (a b c : FVec Ideal S1024x256 .bf16) (w : FVec Ideal S768x1024 .bf16) (h) (p : Fin 1024) (j : Fin 1024) :
    matmul dot_S1024x768_S768x1024_S1024x1024_1_0_0_1_n_n none
        (concatenate S1024x768 1 [⟨S1024x256, a⟩, ⟨S1024x256, b⟩, ⟨S1024x256, c⟩] h) w
        (constant (F := Ideal) S1024x1024 .f32 0x00000000#32) (ix2 p j)
      = rowDotOff (rowOf a p) w 0 (by omega) j + rowDotOff (rowOf b p) w 256 (by omega) j + rowDotOff (rowOf c p) w 512 (by omega) j := by
  refine (matmul_plain_zero_apply (M := 1024) (K := 768) (N := 1024) none _ w (ix2 p j)).trans ?_
  unfold rowDot rowOf rowDotOff
  rw [sum768]
  simp only [cat3c_0 a b c h p, cat3c_1 a b c h p, cat3c_2 a b c h p]

/-- [a | b] times a 512×N panel, at (p, j). -/
theorem matmul_cat2 (a b : FVec Ideal S1024x256 .bf16) (w : FVec Ideal S512x512 .bf16) (h) (p : Fin 1024) (j : Fin 512) :
    matmul dot_S1024x512_S512x512_S1024x512_1_0_0_1_n_n none
        (concatenate S1024x512 1 [⟨S1024x256, a⟩, ⟨S1024x256, b⟩] h) w
        (constant (F := Ideal) S1024x512 .f32 0x00000000#32) (ix2 p j)
      = rowDotOff (rowOf a p) w 0 (by omega) j + rowDotOff (rowOf b p) w 256 (by omega) j := by
  refine (matmul_plain_zero_apply (M := 1024) (K := 512) (N := 512) none _ w (ix2 p j)).trans ?_
  unfold rowDot rowOf rowDotOff
  rw [sum512]
  simp only [cat2c_0 a b h p, cat2c_1 a b h p]

/-- A block stacked on another, times a 256×256 matrix: the upper half is the first block's product. -/
theorem matmul_stack_top (a b : FVec Ideal S1024x256 .bf16) (w : FVec Ideal S256x256 .bf16) (h) (p : Fin 1024) (q : Fin 256) :
    matmul dot_S2048x256_S256x256_S2048x256_1_0_0_1_n_n none
        (concatenate S2048x256 0 [⟨S1024x256, a⟩, ⟨S1024x256, b⟩] h) w
        (constant (F := Ideal) S2048x256 .f32 0x00000000#32) (ix2 ⟨0 + p.val, by omega⟩ q)
      = rowDot (rowOf a p) w q := by
  refine (matmul_plain_zero_apply (M := 2048) (K := 256) (N := 256) none _ w _).trans ?_
  unfold rowDot rowOf
  exact Finset.sum_congr rfl fun k _ => congrArg (· * w (ix2 k q)) (cat2r_0 a b h p k)

/-- and the lower half the second block's. -/
theorem matmul_stack_bot (a b : FVec Ideal S1024x256 .bf16) (w : FVec Ideal S256x256 .bf16) (h) (p : Fin 1024) (q : Fin 256) :
    matmul dot_S2048x256_S256x256_S2048x256_1_0_0_1_n_n none
        (concatenate S2048x256 0 [⟨S1024x256, a⟩, ⟨S1024x256, b⟩] h) w
        (constant (F := Ideal) S2048x256 .f32 0x00000000#32) (ix2 ⟨1024 + p.val, by omega⟩ q)
      = rowDot (rowOf b p) w q := by
  refine (matmul_plain_zero_apply (M := 2048) (K := 256) (N := 256) none _ w _).trans ?_
  unfold rowDot rowOf
  exact Finset.sum_congr rfl fun k _ => congrArg (· * w (ix2 k q)) (cat2r_1 a b h p k)

/-- A plain block product. -/
theorem matmul_block (a : FVec Ideal S1024x256 .bf16) (w : FVec Ideal S256x256 .bf16) (p : Fin 1024) (q : Fin 256) :
    matmul dot_S1024x256_S256x256_S1024x256_1_0_0_1_n_n none a w
        (constant (F := Ideal) S1024x256 .f32 0x00000000#32) (ix2 p q)
      = rowDot (rowOf a p) w q :=
  matmul_plain_zero_apply (M := 1024) (K := 256) (N := 256) none a w (ix2 p q)

/-- A bias of 256 numbers recast as a 1×256 row and spread over 1024 rows, at (p, q). -/
theorem bias_apply (b : FVec Ideal S256 .f32) (h1) (h2) (p : Fin 1024) (q : Fin 256) :
    broadcastTo S1024x256 (shapeCast S1x256 b h1) h2 (ix2 p q) = b (ix1 q) :=
  (broadcastTo_1b_ab_apply (a := 1024) (b := 256) _ h2 p q).trans (shapeCast_a_1a_apply (a := 256) b h1 0 q)

/-- A column band of a wider array. -/
theorem band_apply {N : Nat} (off : Nat) (x : (⟨2, ![1024, N]⟩ : Shape).Idx → EReal) (h : (⟨2, ![1024, N]⟩ : Shape).Slices ![0, off] S1024x256)
    (hN : off + 256 ≤ N) (p : Fin 1024) (q : Fin 256) :
    extractStridedSlice S1024x256 ![0, off] x h (ix2 p q) = x (ix2 p ⟨off + q.val, by omega⟩) :=
  extractStridedSlice_apply _ x h (ix2 p q) (ix2 p ⟨off + q.val, by omega⟩)
    (fun a => by match a with | ⟨0, _⟩ => exact (Nat.zero_add _).symm | ⟨1, _⟩ => rfl)

/-- A row band of a taller array. -/
theorem rband_apply (off : Nat) (x : (⟨2, ![2048, 256]⟩ : Shape).Idx → EReal) (h : (⟨2, ![2048, 256]⟩ : Shape).Slices ![off, 0] S1024x256)
    (hN : off + 1024 ≤ 2048) (p : Fin 1024) (q : Fin 256) :
    extractStridedSlice S1024x256 ![off, 0] x h (ix2 p q) = x (ix2 ⟨off + p.val, by omega⟩ q) :=
  extractStridedSlice_apply _ x h (ix2 p q) (ix2 ⟨off + p.val, by omega⟩ q)
    (fun a => by match a with | ⟨0, _⟩ => rfl | ⟨1, _⟩ => exact (Nat.zero_add _).symm)

end Cert.Gdu.K

end
-- ==== Proof.KRow.lean ====
/-
  The body's stored value is the cell's row function.

  With the 768×1024 panel cut into its twelve 256×256 tiles and the 512×512 panel into its four, entry (p, q) of the
  body's stored value is `outRow` of those tiles, of the three candidate matrices and of the five biases, applied to
  row p of the x, z and h blocks, at column q.  The gates' sums come out grouped as (three terms) + (two terms) + bias
  where `outRow` adds left to right, the candidates' sums with the h-term before the z-term, and the mixture factored
  by r: associativity and commutativity of addition, and `mix_factored`.
-/
import proofs.«137307_j30425548325390_2_alg».proof.Proof.KPay

set_option maxRecDepth 16384

noncomputable section

open scoped BigOperators

namespace Cert.Gdu.K

open Cert.KernelIdeal Cert.KernelIdeal.Gen Idealize.ShloMosaic Idealize.ShloMosaic.ValueIdx Cert.RowDot Cert.Gdu

/-- The cell's parameters as the body holds them: tiles of the two panels, the candidate matrices, the biases. -/
def PK (x3 : FVec Ideal S768x1024 .bf16) (x4 x5 x6 x7 : FVec Ideal S256 .f32) (x8 : FVec Ideal S512x512 .bf16)
    (x9 x10 x11 : FVec Ideal S256x256 .bf16) (x12 : FVec Ideal S256 .f32) : Params :=
  ⟨sub x3 0 0 (by omega) (by omega), sub x3 256 0 (by omega) (by omega), sub x3 512 0 (by omega) (by omega), x4,
   sub x3 0 256 (by omega) (by omega), sub x3 256 256 (by omega) (by omega), sub x3 512 256 (by omega) (by omega), x5,
   sub x3 0 512 (by omega) (by omega), sub x3 256 512 (by omega) (by omega), sub x3 512 512 (by omega) (by omega),
   sub x8 0 0 (by omega) (by omega), sub x8 256 0 (by omega) (by omega), x6,
   sub x3 0 768 (by omega) (by omega), sub x3 256 768 (by omega) (by omega), sub x3 512 768 (by omega) (by omega),
   sub x8 0 256 (by omega) (by omega), sub x8 256 256 (by omega) (by omega), x7,
   x9, x10, x11, x12⟩

/-- The first product, at (p, j): the three rows against the panel's three row bands. -/
theorem pay5_apply (x0 x1 x2 : FVec Ideal S1024x256 .bf16) (x3 : FVec Ideal S768x1024 .bf16) (p : Fin 1024) (j : Fin 1024) :
    k0_pay5 (F := Ideal) x0 x1 x2 x3 (ix2 p j)
      = rowDotOff (rowOf x0 p) x3 0 (by omega) j + rowDotOff (rowOf x1 p) x3 256 (by omega) j + rowDotOff (rowOf x2 p) x3 512 (by omega) j := by
  unfold k0_pay5 k0_pay2 k0_pay3 k0_pay4
  try dsimp only
  simp only [shapeCast_self]
  refine (matmul_cat3 _ _ _ x3 _ p j).trans ?_
  simp only [shapeCast_self]

/-- The damped z block, at (p, q). -/
theorem pay6_apply (x0 x1 x2 : FVec Ideal S1024x256 .bf16) (x3 : FVec Ideal S768x1024 .bf16) (x4 x5 x6 x7 : FVec Ideal S256 .f32) (x8 : FVec Ideal S512x512 .bf16) (x9 x10 x11 : FVec Ideal S256x256 .bf16) (x12 : FVec Ideal S256 .f32) (p : Fin 1024) (q : Fin 256) :
    k0_pay6 (F := Ideal) x0 x1 x2 x3 x4 (ix2 p q) = zTil (PK x3 x4 x5 x6 x7 x8 x9 x10 x11 x12) (rowOf x0 p) (rowOf x1 p) (rowOf x2 p) q := by
  unfold k0_pay6 k0_pay3
  try dsimp only
  show Ideal.logistic (extractStridedSlice S1024x256 ![0, 0] (k0_pay5 (F := Ideal) x0 x1 x2 x3) slices_S1024x1024_o0_0_S1024x256 (ix2 p q)
      + broadcastTo S1024x256 (shapeCast S1x256 x4 shapeCasts_S256_S1x256) broadcasts_S1x256_S1024x256 (ix2 p q))
    * shapeCast S1024x256 x1 shapeCasts_S1024x256_S1024x256 (ix2 p q) = _
  rw [band_apply 0 _ _ (by omega), pay5_apply, bias_apply, shapeCast_self, ← sig_eq]
  rfl

/-- The damped h block, at (p, q). -/
theorem pay7_apply (x0 x1 x2 : FVec Ideal S1024x256 .bf16) (x3 : FVec Ideal S768x1024 .bf16) (x4 x5 x6 x7 : FVec Ideal S256 .f32) (x8 : FVec Ideal S512x512 .bf16) (x9 x10 x11 : FVec Ideal S256x256 .bf16) (x12 : FVec Ideal S256 .f32) (p : Fin 1024) (q : Fin 256) :
    k0_pay7 (F := Ideal) x0 x1 x2 x3 x5 (ix2 p q) = hTil (PK x3 x4 x5 x6 x7 x8 x9 x10 x11 x12) (rowOf x0 p) (rowOf x1 p) (rowOf x2 p) q := by
  unfold k0_pay7 k0_pay4
  try dsimp only
  show Ideal.logistic (extractStridedSlice S1024x256 ![0, 256] (k0_pay5 (F := Ideal) x0 x1 x2 x3) slices_S1024x1024_o0_256_S1024x256 (ix2 p q)
      + broadcastTo S1024x256 (shapeCast S1x256 x5 shapeCasts_S256_S1x256) broadcasts_S1x256_S1024x256 (ix2 p q))
    * shapeCast S1024x256 x2 shapeCasts_S1024x256_S1024x256 (ix2 p q) = _
  rw [band_apply 256 _ _ (by omega), pay5_apply, bias_apply, shapeCast_self, ← sig_eq]
  rfl

theorem rowOf_pay6 (x0 x1 x2 : FVec Ideal S1024x256 .bf16) (x3 : FVec Ideal S768x1024 .bf16) (x4 x5 x6 x7 : FVec Ideal S256 .f32) (x8 : FVec Ideal S512x512 .bf16) (x9 x10 x11 : FVec Ideal S256x256 .bf16) (x12 : FVec Ideal S256 .f32) (p : Fin 1024) :
    rowOf (k0_pay6 (F := Ideal) x0 x1 x2 x3 x4) p = zTil (PK x3 x4 x5 x6 x7 x8 x9 x10 x11 x12) (rowOf x0 p) (rowOf x1 p) (rowOf x2 p) :=
  funext fun q => pay6_apply x0 x1 x2 x3 x4 x5 x6 x7 x8 x9 x10 x11 x12 p q

theorem rowOf_pay7 (x0 x1 x2 : FVec Ideal S1024x256 .bf16) (x3 : FVec Ideal S768x1024 .bf16) (x4 x5 x6 x7 : FVec Ideal S256 .f32) (x8 : FVec Ideal S512x512 .bf16) (x9 x10 x11 : FVec Ideal S256x256 .bf16) (x12 : FVec Ideal S256 .f32) (p : Fin 1024) :
    rowOf (k0_pay7 (F := Ideal) x0 x1 x2 x3 x5) p = hTil (PK x3 x4 x5 x6 x7 x8 x9 x10 x11 x12) (rowOf x0 p) (rowOf x1 p) (rowOf x2 p) :=
  funext fun q => pay7_apply x0 x1 x2 x3 x4 x5 x6 x7 x8 x9 x10 x11 x12 p q

/-- The second product, at (p, j): the damped rows against the second panel's two row bands. -/
theorem pay8_apply (x0 x1 x2 : FVec Ideal S1024x256 .bf16) (x3 : FVec Ideal S768x1024 .bf16) (x4 x5 x6 x7 : FVec Ideal S256 .f32) (x8 : FVec Ideal S512x512 .bf16) (x9 x10 x11 : FVec Ideal S256x256 .bf16) (x12 : FVec Ideal S256 .f32) (p : Fin 1024) (j : Fin 512) :
    k0_pay8 (F := Ideal) x0 x1 x2 x3 x4 x5 x8 (ix2 p j)
      = rowDotOff (zTil (PK x3 x4 x5 x6 x7 x8 x9 x10 x11 x12) (rowOf x0 p) (rowOf x1 p) (rowOf x2 p)) x8 0 (by omega) j
        + rowDotOff (hTil (PK x3 x4 x5 x6 x7 x8 x9 x10 x11 x12) (rowOf x0 p) (rowOf x1 p) (rowOf x2 p)) x8 256 (by omega) j := by
  unfold k0_pay8
  try dsimp only
  simp only [shapeCast_self]
  refine (matmul_cat2 _ _ x8 _ p j).trans ?_
  rw [rowOf_pay6 x0 x1 x2 x3 x4 x5 x6 x7 x8 x9 x10 x11 x12 p, rowOf_pay7 x0 x1 x2 x3 x4 x5 x6 x7 x8 x9 x10 x11 x12 p]

/-- The gate g, at (p, q). -/
theorem pay9_apply (x0 x1 x2 : FVec Ideal S1024x256 .bf16) (x3 : FVec Ideal S768x1024 .bf16) (x4 x5 x6 x7 : FVec Ideal S256 .f32) (x8 : FVec Ideal S512x512 .bf16) (x9 x10 x11 : FVec Ideal S256x256 .bf16) (x12 : FVec Ideal S256 .f32) (p : Fin 1024) (q : Fin 256) :
    k0_pay9 (F := Ideal) x0 x1 x2 x3 x4 x5 x8 x6 (ix2 p q) = gGate (PK x3 x4 x5 x6 x7 x8 x9 x10 x11 x12) (rowOf x0 p) (rowOf x1 p) (rowOf x2 p) q := by
  unfold k0_pay9
  try dsimp only
  show Ideal.logistic ((extractStridedSlice S1024x256 ![0, 512] (k0_pay5 (F := Ideal) x0 x1 x2 x3) slices_S1024x1024_o0_512_S1024x256 (ix2 p q)
      + extractStridedSlice S1024x256 ![0, 0] (k0_pay8 (F := Ideal) x0 x1 x2 x3 x4 x5 x8) slices_S1024x512_o0_0_S1024x256 (ix2 p q))
      + broadcastTo S1024x256 (shapeCast S1x256 x6 shapeCasts_S256_S1x256) broadcasts_S1x256_S1024x256 (ix2 p q)) = _
  rw [band_apply 512 _ _ (by omega), band_apply 0 _ _ (by omega), pay5_apply, pay8_apply x0 x1 x2 x3 x4 x5 x6 x7 x8 x9 x10 x11 x12, bias_apply, ← sig_eq, ← add_assoc]
  rfl

/-- The gate r before its bias and logistic, at (p, q). -/
theorem pay10_apply (x0 x1 x2 : FVec Ideal S1024x256 .bf16) (x3 : FVec Ideal S768x1024 .bf16) (x4 x5 x6 x7 : FVec Ideal S256 .f32) (x8 : FVec Ideal S512x512 .bf16) (x9 x10 x11 : FVec Ideal S256x256 .bf16) (x12 : FVec Ideal S256 .f32) (p : Fin 1024) (q : Fin 256) :
    k0_pay10 (F := Ideal) x0 x1 x2 x3 x4 x5 x8 (ix2 p q)
      = rowDot (rowOf x0 p) (PK x3 x4 x5 x6 x7 x8 x9 x10 x11 x12).Wrx q + rowDot (rowOf x1 p) (PK x3 x4 x5 x6 x7 x8 x9 x10 x11 x12).Wrz q + rowDot (rowOf x2 p) (PK x3 x4 x5 x6 x7 x8 x9 x10 x11 x12).Wrh q
        + rowDot (zTil (PK x3 x4 x5 x6 x7 x8 x9 x10 x11 x12) (rowOf x0 p) (rowOf x1 p) (rowOf x2 p)) (PK x3 x4 x5 x6 x7 x8 x9 x10 x11 x12).Wrzt q
        + rowDot (hTil (PK x3 x4 x5 x6 x7 x8 x9 x10 x11 x12) (rowOf x0 p) (rowOf x1 p) (rowOf x2 p)) (PK x3 x4 x5 x6 x7 x8 x9 x10 x11 x12).Wrht q := by
  unfold k0_pay10
  try dsimp only
  show extractStridedSlice S1024x256 ![0, 768] (k0_pay5 (F := Ideal) x0 x1 x2 x3) slices_S1024x1024_o0_768_S1024x256 (ix2 p q)
      + extractStridedSlice S1024x256 ![0, 256] (k0_pay8 (F := Ideal) x0 x1 x2 x3 x4 x5 x8) slices_S1024x512_o0_256_S1024x256 (ix2 p q) = _
  rw [band_apply 768 _ _ (by omega), band_apply 256 _ _ (by omega), pay5_apply, pay8_apply x0 x1 x2 x3 x4 x5 x6 x7 x8 x9 x10 x11 x12, ← add_assoc]
  rfl

/-- The gate r, at (p, q). -/
theorem pay11_apply (x0 x1 x2 : FVec Ideal S1024x256 .bf16) (x3 : FVec Ideal S768x1024 .bf16) (x4 x5 x6 x7 : FVec Ideal S256 .f32) (x8 : FVec Ideal S512x512 .bf16) (x9 x10 x11 : FVec Ideal S256x256 .bf16) (x12 : FVec Ideal S256 .f32) (p : Fin 1024) (q : Fin 256) :
    k0_pay11 (F := Ideal) (k0_pay10 (F := Ideal) x0 x1 x2 x3 x4 x5 x8) x7 (ix2 p q) = rGate (PK x3 x4 x5 x6 x7 x8 x9 x10 x11 x12) (rowOf x0 p) (rowOf x1 p) (rowOf x2 p) q := by
  unfold k0_pay11
  try dsimp only
  show Ideal.logistic (k0_pay10 (F := Ideal) x0 x1 x2 x3 x4 x5 x8 (ix2 p q)
      + broadcastTo S1024x256 (shapeCast S1x256 x7 shapeCasts_S256_S1x256) broadcasts_S1x256_S1024x256 (ix2 p q)) = _
  rw [pay10_apply x0 x1 x2 x3 x4 x5 x6 x7 x8 x9 x10 x11 x12, bias_apply, ← sig_eq]
  rfl

/-- The shared projection, at (p, q). -/
theorem pay12_apply (v1 : FVec Ideal S1024x256 .bf16) (x9 : FVec Ideal S256x256 .bf16) (x12 : FVec Ideal S256 .f32) (p : Fin 1024) (q : Fin 256) :
    k0_pay12 (F := Ideal) v1 x9 x12 (ix2 p q) = rowDot (rowOf v1 p) x9 q + x12 (ix1 q) := by
  unfold k0_pay12
  try dsimp only
  show matmul dot_S1024x256_S256x256_S1024x256_1_0_0_1_n_n none v1 (shapeCast S256x256 x9 shapeCasts_S256x256_S256x256)
        (constant (F := Ideal) S1024x256 .f32 0x00000000#32) (ix2 p q)
      + broadcastTo S1024x256 (shapeCast S1x256 x12 shapeCasts_S256_S1x256) broadcasts_S1x256_S1024x256 (ix2 p q) = _
  rw [shapeCast_self, matmul_block, bias_apply]

/-- The stacked products' halves, at (p, q). -/
theorem pay14_apply (v3 v28 : FVec Ideal S1024x256 .bf16) (w : FVec Ideal S256x256 .bf16) (p : Fin 1024) (q : Fin 256) :
    k0_pay14 (F := Ideal) v3 v28 w (ix2 p q) = rowDot (rowOf v3 p) w q := by
  unfold k0_pay14 k0_pay13
  try dsimp only
  rw [rband_apply 0 _ _ (by omega), shapeCast_self]
  exact matmul_stack_top v3 v28 w _ p q

theorem pay15_apply (v3 v28 : FVec Ideal S1024x256 .bf16) (w : FVec Ideal S256x256 .bf16) (p : Fin 1024) (q : Fin 256) :
    k0_pay15 (F := Ideal) v3 v28 w (ix2 p q) = rowDot (rowOf v28 p) w q := by
  unfold k0_pay15 k0_pay13
  try dsimp only
  rw [rband_apply 1024 _ _ (by omega), shapeCast_self]
  exact matmul_stack_bot v3 v28 w _ p q

theorem pay16_top (v5 v29 : FVec Ideal S1024x256 .bf16) (w : FVec Ideal S256x256 .bf16) (p : Fin 1024) (q : Fin 256) :
    extractStridedSlice S1024x256 ![0, 0] (k0_pay16 (F := Ideal) v5 v29 w) slices_S2048x256_o0_0_S1024x256 (ix2 p q) = rowDot (rowOf v5 p) w q := by
  unfold k0_pay16
  try dsimp only
  rw [rband_apply 0 _ _ (by omega), shapeCast_self]
  exact matmul_stack_top v5 v29 w _ p q

theorem pay16_bot (v5 v29 : FVec Ideal S1024x256 .bf16) (w : FVec Ideal S256x256 .bf16) (p : Fin 1024) (q : Fin 256) :
    extractStridedSlice S1024x256 ![1024, 0] (k0_pay16 (F := Ideal) v5 v29 w) slices_S2048x256_o1024_0_S1024x256 (ix2 p q) = rowDot (rowOf v29 p) w q := by
  unfold k0_pay16
  try dsimp only
  rw [rband_apply 1024 _ _ (by omega), shapeCast_self]
  exact matmul_stack_bot v5 v29 w _ p q

end Cert.Gdu.K

end
-- ==== Proof.KTail.lean ====
/-
  The tail of the body: the four candidates and their mixture, and the whole stored value as the cell's row function.
-/
import proofs.«137307_j30425548325390_2_alg».proof.Proof.KRow

set_option maxRecDepth 16384

noncomputable section

open scoped BigOperators

namespace Cert.Gdu.K

open Cert.KernelIdeal Cert.KernelIdeal.Gen Idealize.ShloMosaic Idealize.ShloMosaic.ValueIdx Cert.RowDot Cert.Gdu

/-- The r-weighted half of the mixture, at (p, q): r · (g · tanh(u + h~-term + z~-term) + (one − g) · tanh(u + h~-term + z-term)). -/
theorem pay17_apply (v1 v3 v5 v28 v29 : FVec Ideal S1024x256 .bf16) (v41 v42 : FVec Ideal S1024x256 .f32) (v43 : FVec Ideal S256 .f32) (v48 : FVec Ideal S256x256 .bf16) (v51 : FVec Ideal S256 .f32) (v56 v62 : FVec Ideal S256x256 .bf16) (p : Fin 1024) (q : Fin 256) :
    k0_pay17 (F := Ideal) v1 v3 v5 v28 v29 v41 v42 v43 v48 v51 v56 v62 (ix2 p q)
      = k0_pay11 (F := Ideal) v42 v43 (ix2 p q)
        * (v41 (ix2 p q) * Ideal.tanh (rowDot (rowOf v1 p) v48 q + v51 (ix1 q) + rowDot (rowOf v29 p) v62 q + rowDot (rowOf v28 p) v56 q)
          + (one - v41 (ix2 p q)) * Ideal.tanh (rowDot (rowOf v1 p) v48 q + v51 (ix1 q) + rowDot (rowOf v29 p) v62 q + rowDot (rowOf v3 p) v56 q)) := by
  unfold k0_pay17
  try dsimp only
  show k0_pay11 (F := Ideal) v42 v43 (ix2 p q)
        * (v41 (ix2 p q) * Ideal.tanh (k0_pay12 (F := Ideal) v1 v48 v51 (ix2 p q)
              + extractStridedSlice S1024x256 ![1024, 0] (k0_pay16 (F := Ideal) v5 v29 v62) slices_S2048x256_o1024_0_S1024x256 (ix2 p q)
              + k0_pay15 (F := Ideal) v3 v28 v56 (ix2 p q))
          + (one - v41 (ix2 p q)) * Ideal.tanh (k0_pay12 (F := Ideal) v1 v48 v51 (ix2 p q)
              + extractStridedSlice S1024x256 ![1024, 0] (k0_pay16 (F := Ideal) v5 v29 v62) slices_S2048x256_o1024_0_S1024x256 (ix2 p q)
              + k0_pay14 (F := Ideal) v3 v28 v56 (ix2 p q))) = _
  rw [pay12_apply, pay16_bot, pay15_apply, pay14_apply]

/-- The other half, at (p, q): g · tanh(u + h-term + z~-term) + (one − g) · tanh(u + h-term + z-term). -/
theorem pay19_apply (v1 v3 v5 v28 v29 : FVec Ideal S1024x256 .bf16) (v41 : FVec Ideal S1024x256 .f32) (v48 : FVec Ideal S256x256 .bf16) (v51 : FVec Ideal S256 .f32) (v56 v62 : FVec Ideal S256x256 .bf16) (p : Fin 1024) (q : Fin 256) :
    k0_pay19 (F := Ideal) v1 v3 v5 v28 v29 v41 v48 v51 v56 v62 (ix2 p q)
      = v41 (ix2 p q) * Ideal.tanh (rowDot (rowOf v1 p) v48 q + v51 (ix1 q) + rowDot (rowOf v5 p) v62 q + rowDot (rowOf v28 p) v56 q)
          + (one - v41 (ix2 p q)) * Ideal.tanh (rowDot (rowOf v1 p) v48 q + v51 (ix1 q) + rowDot (rowOf v5 p) v62 q + rowDot (rowOf v3 p) v56 q) := by
  unfold k0_pay19
  try dsimp only
  show v41 (ix2 p q) * Ideal.tanh (k0_pay12 (F := Ideal) v1 v48 v51 (ix2 p q)
              + extractStridedSlice S1024x256 ![0, 0] (k0_pay16 (F := Ideal) v5 v29 v62) slices_S2048x256_o0_0_S1024x256 (ix2 p q)
              + k0_pay15 (F := Ideal) v3 v28 v56 (ix2 p q))
          + (one - v41 (ix2 p q)) * Ideal.tanh (k0_pay12 (F := Ideal) v1 v48 v51 (ix2 p q)
              + extractStridedSlice S1024x256 ![0, 0] (k0_pay16 (F := Ideal) v5 v29 v62) slices_S2048x256_o0_0_S1024x256 (ix2 p q)
              + k0_pay14 (F := Ideal) v3 v28 v56 (ix2 p q)) = _
  rw [pay12_apply, pay16_top, pay15_apply, pay14_apply]

/-- The complement of r, at an index. -/
theorem pay18_apply (v42 : FVec Ideal S1024x256 .f32) (v43 : FVec Ideal S256 .f32) (i : S1024x256.Idx) :
    k0_pay18 (F := Ideal) v42 v43 i = one - k0_pay11 (F := Ideal) v42 v43 i := rfl

/-- The stored value from the two halves, at an index. -/
theorem pay1_apply (v77 v84 v89 : FVec Ideal S1024x256 .f32) (i : S1024x256.Idx) :
    k0_pay1 (F := Ideal) v77 v84 v89 i = v77 i + v84 i * v89 i := rfl

/-- The factored mixture with the h-term added before the z-term inside each tanh is the left-to-right mixture with
    the z-term first. -/
theorem mix_kernel (g a U uzt uzz uht uhh : EReal) :
    sig a * (g * Ideal.tanh (U + uht + uzt) + (one - g) * Ideal.tanh (U + uht + uzz))
        + (one - sig a) * (g * Ideal.tanh (U + uhh + uzt) + (one - g) * Ideal.tanh (U + uhh + uzz))
      = mix g (sig a) (Ideal.tanh (U + uzt + uht)) (Ideal.tanh (U + uzz + uht)) (Ideal.tanh (U + uzt + uhh)) (Ideal.tanh (U + uzz + uhh)) := by
  rw [add_right_comm U uht uzt, add_right_comm U uht uzz, add_right_comm U uhh uzt, add_right_comm U uhh uzz]
  exact mix_factored a g _ _ _ _

theorem pay2_eq (x : FVec Ideal S1024x256 .bf16) : k0_pay2 (F := Ideal) x = x := shapeCast_self x _
theorem pay3_eq (x : FVec Ideal S1024x256 .bf16) : k0_pay3 (F := Ideal) x = x := shapeCast_self x _
theorem pay4_eq (x : FVec Ideal S1024x256 .bf16) : k0_pay4 (F := Ideal) x = x := shapeCast_self x _

/-- The body's stored value as a function of the thirteen buffers' contents. -/
def body (x0 x1 x2 : FVec Ideal S1024x256 .bf16) (x3 : FVec Ideal S768x1024 .bf16) (x4 x5 x6 x7 : FVec Ideal S256 .f32) (x8 : FVec Ideal S512x512 .bf16) (x9 x10 x11 : FVec Ideal S256x256 .bf16) (x12 : FVec Ideal S256 .f32) : FVec Ideal S1024x256 .f32 :=
  k0_pay1
    (k0_pay17 (F := Ideal) (k0_pay2 (F := Ideal) x0) (k0_pay3 (F := Ideal) x1) (k0_pay4 (F := Ideal) x2) (k0_pay6 (F := Ideal) x0 x1 x2 x3 x4) (k0_pay7 (F := Ideal) x0 x1 x2 x3 x5)
      (k0_pay9 (F := Ideal) x0 x1 x2 x3 x4 x5 x8 x6) (k0_pay10 (F := Ideal) x0 x1 x2 x3 x4 x5 x8) x7 x9 x12 x10 x11)
    (k0_pay18 (F := Ideal) (k0_pay10 (F := Ideal) x0 x1 x2 x3 x4 x5 x8) x7)
    (k0_pay19 (F := Ideal) (k0_pay2 (F := Ideal) x0) (k0_pay3 (F := Ideal) x1) (k0_pay4 (F := Ideal) x2) (k0_pay6 (F := Ideal) x0 x1 x2 x3 x4) (k0_pay7 (F := Ideal) x0 x1 x2 x3 x5)
      (k0_pay9 (F := Ideal) x0 x1 x2 x3 x4 x5 x8 x6) x9 x12 x10 x11)

/-- Entry (p, q) of the stored value is the cell's row function of row p of the three blocks, at q. -/
theorem body_apply (x0 x1 x2 : FVec Ideal S1024x256 .bf16) (x3 : FVec Ideal S768x1024 .bf16) (x4 x5 x6 x7 : FVec Ideal S256 .f32) (x8 : FVec Ideal S512x512 .bf16) (x9 x10 x11 : FVec Ideal S256x256 .bf16) (x12 : FVec Ideal S256 .f32) (p : Fin 1024) (q : Fin 256) :
    body x0 x1 x2 x3 x4 x5 x6 x7 x8 x9 x10 x11 x12 (ix2 p q) = outRow (PK x3 x4 x5 x6 x7 x8 x9 x10 x11 x12) (rowOf x0 p) (rowOf x1 p) (rowOf x2 p) q := by
  unfold body
  rw [pay1_apply, pay18_apply, pay17_apply, pay19_apply, pay11_apply x0 x1 x2 x3 x4 x5 x6 x7 x8 x9 x10 x11 x12, pay9_apply x0 x1 x2 x3 x4 x5 x6 x7 x8 x9 x10 x11 x12,
    rowOf_pay6 x0 x1 x2 x3 x4 x5 x6 x7 x8 x9 x10 x11 x12, rowOf_pay7 x0 x1 x2 x3 x4 x5 x6 x7 x8 x9 x10 x11 x12, pay2_eq, pay3_eq, pay4_eq]
  exact mix_kernel (gGate (PK x3 x4 x5 x6 x7 x8 x9 x10 x11 x12) (rowOf x0 p) (rowOf x1 p) (rowOf x2 p) q)
    (rowDot (rowOf x0 p) (PK x3 x4 x5 x6 x7 x8 x9 x10 x11 x12).Wrx q + rowDot (rowOf x1 p) (PK x3 x4 x5 x6 x7 x8 x9 x10 x11 x12).Wrz q + rowDot (rowOf x2 p) (PK x3 x4 x5 x6 x7 x8 x9 x10 x11 x12).Wrh q
      + rowDot (zTil (PK x3 x4 x5 x6 x7 x8 x9 x10 x11 x12) (rowOf x0 p) (rowOf x1 p) (rowOf x2 p)) (PK x3 x4 x5 x6 x7 x8 x9 x10 x11 x12).Wrzt q
      + rowDot (hTil (PK x3 x4 x5 x6 x7 x8 x9 x10 x11 x12) (rowOf x0 p) (rowOf x1 p) (rowOf x2 p)) (PK x3 x4 x5 x6 x7 x8 x9 x10 x11 x12).Wrht q + (PK x3 x4 x5 x6 x7 x8 x9 x10 x11 x12).br (ix1 q))
    (rowDot (rowOf x0 p) x9 q + x12 (ix1 q))
    (rowDot (zTil (PK x3 x4 x5 x6 x7 x8 x9 x10 x11 x12) (rowOf x0 p) (rowOf x1 p) (rowOf x2 p)) x10 q)
    (rowDot (rowOf x1 p) x10 q)
    (rowDot (hTil (PK x3 x4 x5 x6 x7 x8 x9 x10 x11 x12) (rowOf x0 p) (rowOf x1 p) (rowOf x2 p)) x11 q)
    (rowDot (rowOf x2 p) x11 q)

end Cert.Gdu.K

end
-- ==== Proof.KHost.lean ====
/-
  What the region's windows find in their arrays, at the exact values.

  Before the region the host lays the twelve gate matrices out as one 768×1024 panel — three row bands (for x, z, h),
  each four matrices side by side (for f, e, g, r) — and the four extra matrices as one 512×512 panel — two row bands
  (for z~, h~), each two matrices side by side (for g, r); every other operand is an argument with its float format
  changed, which at the exact values changes nothing.
-/
import proofs.«137307_j30425548325390_2_alg».proof.Proof.FrameKernelIdeal
import Idealize.ShloMosaic.Lib.StableHlo.Run
import Idealize.ShloMosaic.Lib.Pipeline.Value
import Idealize.ShloMosaic.PureOps.Ideal.Laws

set_option maxRecDepth 16384

noncomputable section

namespace Cert.Gdu.KHost

open Cert.KernelIdeal Cert.KernelIdeal.Gen Cert.KernelIdeal.Fr Idealize.ShloMosaic Idealize.ShloMosaic.TcCoe Idealize.SL.Sem Idealize.ShloMosaic.StableHlo

variable (m : (ℓ : Loc nD τ sig) → Buf (Elt Ideal) ℓ)

/-- The three row inputs reach the region unchanged in value. -/
theorem V_x (c : Dev nD) : (V m c main_v15 : S65536x256.Idx → EReal) = (m ((c : Thread nD τ).loc main_arg0) : S65536x256.Idx → EReal) := by
  dsimp only [V, hostOps0]; after_results; rfl
theorem V_z (c : Dev nD) : (V m c main_v16 : S65536x256.Idx → EReal) = (m ((c : Thread nD τ).loc main_arg1) : S65536x256.Idx → EReal) := by
  dsimp only [V, hostOps0]; after_results; rfl
theorem V_h (c : Dev nD) : (V m c main_v17 : S65536x256.Idx → EReal) = (m ((c : Thread nD τ).loc main_arg2) : S65536x256.Idx → EReal) := by
  dsimp only [V, hostOps0]; after_results; rfl

/-- The three candidate matrices too. -/
theorem V_ux (c : Dev nD) : (V m c main_v12 : S256x256.Idx → EReal) = (m ((c : Thread nD τ).loc main_arg23) : S256x256.Idx → EReal) := by
  dsimp only [V, hostOps0]; after_results; rfl
theorem V_uz (c : Dev nD) : (V m c main_v13 : S256x256.Idx → EReal) = (m ((c : Thread nD τ).loc main_arg24) : S256x256.Idx → EReal) := by
  dsimp only [V, hostOps0]; after_results; rfl
theorem V_uh (c : Dev nD) : (V m c main_v14 : S256x256.Idx → EReal) = (m ((c : Thread nD τ).loc main_arg25) : S256x256.Idx → EReal) := by
  dsimp only [V, hostOps0]; after_results; rfl

/-- The 768×1024 panel: three row bands of four matrices each. -/
def panel1 (c : Dev nD) : S768x1024.Idx → EReal :=
  concatenate S768x1024 0 [⟨S256x1024, concatenate S256x1024 1 [⟨S256x256, m ((c : Thread nD τ).loc main_arg3)⟩, ⟨S256x256, m ((c : Thread nD τ).loc main_arg7)⟩, ⟨S256x256, m ((c : Thread nD τ).loc main_arg11)⟩, ⟨S256x256, m ((c : Thread nD τ).loc main_arg17)⟩] concatenates_S256x256_S256x256_S256x256_S256x256_S256x1024_d1⟩,
     ⟨S256x1024, concatenate S256x1024 1 [⟨S256x256, m ((c : Thread nD τ).loc main_arg4)⟩, ⟨S256x256, m ((c : Thread nD τ).loc main_arg8)⟩, ⟨S256x256, m ((c : Thread nD τ).loc main_arg12)⟩, ⟨S256x256, m ((c : Thread nD τ).loc main_arg18)⟩] concatenates_S256x256_S256x256_S256x256_S256x256_S256x1024_d1⟩,
     ⟨S256x1024, concatenate S256x1024 1 [⟨S256x256, m ((c : Thread nD τ).loc main_arg5)⟩, ⟨S256x256, m ((c : Thread nD τ).loc main_arg9)⟩, ⟨S256x256, m ((c : Thread nD τ).loc main_arg13)⟩, ⟨S256x256, m ((c : Thread nD τ).loc main_arg19)⟩] concatenates_S256x256_S256x256_S256x256_S256x256_S256x1024_d1⟩] concatenates_S256x1024_S256x1024_S256x1024_S768x1024_d0

set_option maxHeartbeats 8000000 in
theorem V_panel1 (c : Dev nD) : (V m c main_v6 : S768x1024.Idx → EReal) = panel1 m c := by
  unfold panel1; dsimp only [V, hostOps0]; after_results; rfl

/-- The 512×512 panel: two row bands of two matrices each. -/
def panel2 (c : Dev nD) : S512x512.Idx → EReal :=
  concatenate S512x512 0 [⟨S256x512, concatenate S256x512 1 [⟨S256x256, m ((c : Thread nD τ).loc main_arg14)⟩, ⟨S256x256, m ((c : Thread nD τ).loc main_arg20)⟩] concatenates_S256x256_S256x256_S256x512_d1⟩,
     ⟨S256x512, concatenate S256x512 1 [⟨S256x256, m ((c : Thread nD τ).loc main_arg15)⟩, ⟨S256x256, m ((c : Thread nD τ).loc main_arg21)⟩] concatenates_S256x256_S256x256_S256x512_d1⟩] concatenates_S256x512_S256x512_S512x512_d0

set_option maxHeartbeats 8000000 in
theorem V_panel2 (c : Dev nD) : (V m c main_v11 : S512x512.Idx → EReal) = panel2 m c := by
  unfold panel2; dsimp only [V, hostOps0]; after_results; rfl

end Cert.Gdu.KHost

end
-- ==== Proof.KPanel.lean ====
/-
  The tiles of the two panels are the argument matrices.

  The 768×1024 panel is three row bands stacked, each band four 256×256 argument matrices side by side; the 512×512
  panel is two row bands of two.  Entry (256·a + p, 256·b + q) of such a panel lies in band a, at row p of that band,
  and there in the band's piece b, at (p, q) of that piece: reading a stacked array at a row and a side-by-side array
  at a column, each time in the piece whose span holds the coordinate.  So the 256×256 tile of the panel whose top-left
  entry is (256·a, 256·b) is, as a whole matrix, piece b of band a.  Sixteen tiles, sixteen arguments; with the
  five biases and the three candidate matrices, which are arguments already, the cell's parameters as the body holds
  them are the 24 arguments in order.
-/
import proofs.«137307_j30425548325390_2_alg».proof.Proof.KHost
import proofs.«137307_j30425548325390_2_alg».proof.Proof.KRow

set_option maxRecDepth 16384

noncomputable section

namespace Cert.Gdu.KPanel

open Cert.KernelIdeal Cert.KernelIdeal.Gen Idealize.ShloMosaic Idealize.ShloMosaic.TcCoe Idealize.SL.Sem Idealize.ShloMosaic.ValueIdx Cert.Gdu

/-! ## Pieces laid side by side or stacked, read at an index -/

/-! Four 256×256 pieces side by side: columns 256·b .. 256·b + 255 are piece b. -/
theorem cat4c_0 (u0 : S256x256.Idx → EReal) (u1 : S256x256.Idx → EReal) (u2 : S256x256.Idx → EReal) (u3 : S256x256.Idx → EReal)
    (h : Shape.Concatenates (([⟨S256x256, u0⟩, ⟨S256x256, u1⟩, ⟨S256x256, u2⟩, ⟨S256x256, u3⟩] : List ((s : Shape) × (s.Idx → EReal))).map (·.1)) S256x1024 1) (p : Fin 256) (q : Fin 256) :
    concatenate S256x1024 1 [⟨S256x256, u0⟩, ⟨S256x256, u1⟩, ⟨S256x256, u2⟩, ⟨S256x256, u3⟩] h (ix2 p ⟨0 + q.val, by omega⟩) = u0 (ix2 p q) :=
  concatenate_apply_piece (t := S256x1024) (a := 1) (xs := [⟨S256x256, u0⟩, ⟨S256x256, u1⟩, ⟨S256x256, u2⟩, ⟨S256x256, u3⟩]) (h := h) (j := (ix2 p ⟨0 + q.val, by omega⟩)) (k := 0) (hk := by simp)
    (s₁ := S256x256) (x₁ := u0) (hxk := rfl) (hr := rfl) (pre := 0) (hpre := rfl) (i := ix2 p q)
    (hi := fun b hb => by match b with | ⟨0, _⟩ => (first | rfl | exact absurd rfl hb) | ⟨1, _⟩ => (first | rfl | exact absurd rfl hb)) (ha := rfl)

theorem cat4c_1 (u0 : S256x256.Idx → EReal) (u1 : S256x256.Idx → EReal) (u2 : S256x256.Idx → EReal) (u3 : S256x256.Idx → EReal)
    (h : Shape.Concatenates (([⟨S256x256, u0⟩, ⟨S256x256, u1⟩, ⟨S256x256, u2⟩, ⟨S256x256, u3⟩] : List ((s : Shape) × (s.Idx → EReal))).map (·.1)) S256x1024 1) (p : Fin 256) (q : Fin 256) :
    concatenate S256x1024 1 [⟨S256x256, u0⟩, ⟨S256x256, u1⟩, ⟨S256x256, u2⟩, ⟨S256x256, u3⟩] h (ix2 p ⟨256 + q.val, by omega⟩) = u1 (ix2 p q) :=
  concatenate_apply_piece (t := S256x1024) (a := 1) (xs := [⟨S256x256, u0⟩, ⟨S256x256, u1⟩, ⟨S256x256, u2⟩, ⟨S256x256, u3⟩]) (h := h) (j := (ix2 p ⟨256 + q.val, by omega⟩)) (k := 1) (hk := by simp)
    (s₁ := S256x256) (x₁ := u1) (hxk := rfl) (hr := rfl) (pre := 256) (hpre := rfl) (i := ix2 p q)
    (hi := fun b hb => by match b with | ⟨0, _⟩ => (first | rfl | exact absurd rfl hb) | ⟨1, _⟩ => (first | rfl | exact absurd rfl hb)) (ha := rfl)

theorem cat4c_2 (u0 : S256x256.Idx → EReal) (u1 : S256x256.Idx → EReal) (u2 : S256x256.Idx → EReal) (u3 : S256x256.Idx → EReal)
    (h : Shape.Concatenates (([⟨S256x256, u0⟩, ⟨S256x256, u1⟩, ⟨S256x256, u2⟩, ⟨S256x256, u3⟩] : List ((s : Shape) × (s.Idx → EReal))).map (·.1)) S256x1024 1) (p : Fin 256) (q : Fin 256) :
    concatenate S256x1024 1 [⟨S256x256, u0⟩, ⟨S256x256, u1⟩, ⟨S256x256, u2⟩, ⟨S256x256, u3⟩] h (ix2 p ⟨512 + q.val, by omega⟩) = u2 (ix2 p q) :=
  concatenate_apply_piece (t := S256x1024) (a := 1) (xs := [⟨S256x256, u0⟩, ⟨S256x256, u1⟩, ⟨S256x256, u2⟩, ⟨S256x256, u3⟩]) (h := h) (j := (ix2 p ⟨512 + q.val, by omega⟩)) (k := 2) (hk := by simp)
    (s₁ := S256x256) (x₁ := u2) (hxk := rfl) (hr := rfl) (pre := 512) (hpre := rfl) (i := ix2 p q)
    (hi := fun b hb => by match b with | ⟨0, _⟩ => (first | rfl | exact absurd rfl hb) | ⟨1, _⟩ => (first | rfl | exact absurd rfl hb)) (ha := rfl)

theorem cat4c_3 (u0 : S256x256.Idx → EReal) (u1 : S256x256.Idx → EReal) (u2 : S256x256.Idx → EReal) (u3 : S256x256.Idx → EReal)
    (h : Shape.Concatenates (([⟨S256x256, u0⟩, ⟨S256x256, u1⟩, ⟨S256x256, u2⟩, ⟨S256x256, u3⟩] : List ((s : Shape) × (s.Idx → EReal))).map (·.1)) S256x1024 1) (p : Fin 256) (q : Fin 256) :
    concatenate S256x1024 1 [⟨S256x256, u0⟩, ⟨S256x256, u1⟩, ⟨S256x256, u2⟩, ⟨S256x256, u3⟩] h (ix2 p ⟨768 + q.val, by omega⟩) = u3 (ix2 p q) :=
  concatenate_apply_piece (t := S256x1024) (a := 1) (xs := [⟨S256x256, u0⟩, ⟨S256x256, u1⟩, ⟨S256x256, u2⟩, ⟨S256x256, u3⟩]) (h := h) (j := (ix2 p ⟨768 + q.val, by omega⟩)) (k := 3) (hk := by simp)
    (s₁ := S256x256) (x₁ := u3) (hxk := rfl) (hr := rfl) (pre := 768) (hpre := rfl) (i := ix2 p q)
    (hi := fun b hb => by match b with | ⟨0, _⟩ => (first | rfl | exact absurd rfl hb) | ⟨1, _⟩ => (first | rfl | exact absurd rfl hb)) (ha := rfl)

/-! Three 256×1024 bands stacked: rows 256·a .. 256·a + 255 are band a. -/
theorem cat3r_0 (u0 : S256x1024.Idx → EReal) (u1 : S256x1024.Idx → EReal) (u2 : S256x1024.Idx → EReal)
    (h : Shape.Concatenates (([⟨S256x1024, u0⟩, ⟨S256x1024, u1⟩, ⟨S256x1024, u2⟩] : List ((s : Shape) × (s.Idx → EReal))).map (·.1)) S768x1024 0) (p : Fin 256) (q : Fin 1024) :
    concatenate S768x1024 0 [⟨S256x1024, u0⟩, ⟨S256x1024, u1⟩, ⟨S256x1024, u2⟩] h (ix2 ⟨0 + p.val, by omega⟩ q) = u0 (ix2 p q) :=
  concatenate_apply_piece (t := S768x1024) (a := 0) (xs := [⟨S256x1024, u0⟩, ⟨S256x1024, u1⟩, ⟨S256x1024, u2⟩]) (h := h) (j := (ix2 ⟨0 + p.val, by omega⟩ q)) (k := 0) (hk := by simp)
    (s₁ := S256x1024) (x₁ := u0) (hxk := rfl) (hr := rfl) (pre := 0) (hpre := rfl) (i := ix2 p q)
    (hi := fun b hb => by match b with | ⟨0, _⟩ => (first | rfl | exact absurd rfl hb) | ⟨1, _⟩ => (first | rfl | exact absurd rfl hb)) (ha := rfl)

theorem cat3r_1 (u0 : S256x1024.Idx → EReal) (u1 : S256x1024.Idx → EReal) (u2 : S256x1024.Idx → EReal)
    (h : Shape.Concatenates (([⟨S256x1024, u0⟩, ⟨S256x1024, u1⟩, ⟨S256x1024, u2⟩] : List ((s : Shape) × (s.Idx → EReal))).map (·.1)) S768x1024 0) (p : Fin 256) (q : Fin 1024) :
    concatenate S768x1024 0 [⟨S256x1024, u0⟩, ⟨S256x1024, u1⟩, ⟨S256x1024, u2⟩] h (ix2 ⟨256 + p.val, by omega⟩ q) = u1 (ix2 p q) :=
  concatenate_apply_piece (t := S768x1024) (a := 0) (xs := [⟨S256x1024, u0⟩, ⟨S256x1024, u1⟩, ⟨S256x1024, u2⟩]) (h := h) (j := (ix2 ⟨256 + p.val, by omega⟩ q)) (k := 1) (hk := by simp)
    (s₁ := S256x1024) (x₁ := u1) (hxk := rfl) (hr := rfl) (pre := 256) (hpre := rfl) (i := ix2 p q)
    (hi := fun b hb => by match b with | ⟨0, _⟩ => (first | rfl | exact absurd rfl hb) | ⟨1, _⟩ => (first | rfl | exact absurd rfl hb)) (ha := rfl)

theorem cat3r_2 (u0 : S256x1024.Idx → EReal) (u1 : S256x1024.Idx → EReal) (u2 : S256x1024.Idx → EReal)
    (h : Shape.Concatenates (([⟨S256x1024, u0⟩, ⟨S256x1024, u1⟩, ⟨S256x1024, u2⟩] : List ((s : Shape) × (s.Idx → EReal))).map (·.1)) S768x1024 0) (p : Fin 256) (q : Fin 1024) :
    concatenate S768x1024 0 [⟨S256x1024, u0⟩, ⟨S256x1024, u1⟩, ⟨S256x1024, u2⟩] h (ix2 ⟨512 + p.val, by omega⟩ q) = u2 (ix2 p q) :=
  concatenate_apply_piece (t := S768x1024) (a := 0) (xs := [⟨S256x1024, u0⟩, ⟨S256x1024, u1⟩, ⟨S256x1024, u2⟩]) (h := h) (j := (ix2 ⟨512 + p.val, by omega⟩ q)) (k := 2) (hk := by simp)
    (s₁ := S256x1024) (x₁ := u2) (hxk := rfl) (hr := rfl) (pre := 512) (hpre := rfl) (i := ix2 p q)
    (hi := fun b hb => by match b with | ⟨0, _⟩ => (first | rfl | exact absurd rfl hb) | ⟨1, _⟩ => (first | rfl | exact absurd rfl hb)) (ha := rfl)

/-! Two 256×256 pieces side by side. -/
theorem cat2c_0 (u0 : S256x256.Idx → EReal) (u1 : S256x256.Idx → EReal)
    (h : Shape.Concatenates (([⟨S256x256, u0⟩, ⟨S256x256, u1⟩] : List ((s : Shape) × (s.Idx → EReal))).map (·.1)) S256x512 1) (p : Fin 256) (q : Fin 256) :
    concatenate S256x512 1 [⟨S256x256, u0⟩, ⟨S256x256, u1⟩] h (ix2 p ⟨0 + q.val, by omega⟩) = u0 (ix2 p q) :=
  concatenate_apply_piece (t := S256x512) (a := 1) (xs := [⟨S256x256, u0⟩, ⟨S256x256, u1⟩]) (h := h) (j := (ix2 p ⟨0 + q.val, by omega⟩)) (k := 0) (hk := by simp)
    (s₁ := S256x256) (x₁ := u0) (hxk := rfl) (hr := rfl) (pre := 0) (hpre := rfl) (i := ix2 p q)
    (hi := fun b hb => by match b with | ⟨0, _⟩ => (first | rfl | exact absurd rfl hb) | ⟨1, _⟩ => (first | rfl | exact absurd rfl hb)) (ha := rfl)

theorem cat2c_1 (u0 : S256x256.Idx → EReal) (u1 : S256x256.Idx → EReal)
    (h : Shape.Concatenates (([⟨S256x256, u0⟩, ⟨S256x256, u1⟩] : List ((s : Shape) × (s.Idx → EReal))).map (·.1)) S256x512 1) (p : Fin 256) (q : Fin 256) :
    concatenate S256x512 1 [⟨S256x256, u0⟩, ⟨S256x256, u1⟩] h (ix2 p ⟨256 + q.val, by omega⟩) = u1 (ix2 p q) :=
  concatenate_apply_piece (t := S256x512) (a := 1) (xs := [⟨S256x256, u0⟩, ⟨S256x256, u1⟩]) (h := h) (j := (ix2 p ⟨256 + q.val, by omega⟩)) (k := 1) (hk := by simp)
    (s₁ := S256x256) (x₁ := u1) (hxk := rfl) (hr := rfl) (pre := 256) (hpre := rfl) (i := ix2 p q)
    (hi := fun b hb => by match b with | ⟨0, _⟩ => (first | rfl | exact absurd rfl hb) | ⟨1, _⟩ => (first | rfl | exact absurd rfl hb)) (ha := rfl)

/-! Two 256×512 bands stacked. -/
theorem cat2r_0 (u0 : S256x512.Idx → EReal) (u1 : S256x512.Idx → EReal)
    (h : Shape.Concatenates (([⟨S256x512, u0⟩, ⟨S256x512, u1⟩] : List ((s : Shape) × (s.Idx → EReal))).map (·.1)) S512x512 0) (p : Fin 256) (q : Fin 512) :
    concatenate S512x512 0 [⟨S256x512, u0⟩, ⟨S256x512, u1⟩] h (ix2 ⟨0 + p.val, by omega⟩ q) = u0 (ix2 p q) :=
  concatenate_apply_piece (t := S512x512) (a := 0) (xs := [⟨S256x512, u0⟩, ⟨S256x512, u1⟩]) (h := h) (j := (ix2 ⟨0 + p.val, by omega⟩ q)) (k := 0) (hk := by simp)
    (s₁ := S256x512) (x₁ := u0) (hxk := rfl) (hr := rfl) (pre := 0) (hpre := rfl) (i := ix2 p q)
    (hi := fun b hb => by match b with | ⟨0, _⟩ => (first | rfl | exact absurd rfl hb) | ⟨1, _⟩ => (first | rfl | exact absurd rfl hb)) (ha := rfl)

theorem cat2r_1 (u0 : S256x512.Idx → EReal) (u1 : S256x512.Idx → EReal)
    (h : Shape.Concatenates (([⟨S256x512, u0⟩, ⟨S256x512, u1⟩] : List ((s : Shape) × (s.Idx → EReal))).map (·.1)) S512x512 0) (p : Fin 256) (q : Fin 512) :
    concatenate S512x512 0 [⟨S256x512, u0⟩, ⟨S256x512, u1⟩] h (ix2 ⟨256 + p.val, by omega⟩ q) = u1 (ix2 p q) :=
  concatenate_apply_piece (t := S512x512) (a := 0) (xs := [⟨S256x512, u0⟩, ⟨S256x512, u1⟩]) (h := h) (j := (ix2 ⟨256 + p.val, by omega⟩ q)) (k := 1) (hk := by simp)
    (s₁ := S256x512) (x₁ := u1) (hxk := rfl) (hr := rfl) (pre := 256) (hpre := rfl) (i := ix2 p q)
    (hi := fun b hb => by match b with | ⟨0, _⟩ => (first | rfl | exact absurd rfl hb) | ⟨1, _⟩ => (first | rfl | exact absurd rfl hb)) (ha := rfl)

/-! ## The tiles of the two panels -/

variable (m : (ℓ : Loc nD τ Cert.KernelIdeal.sig) → Buf (Elt Ideal) ℓ)

/-! The 768×1024 panel: the tile at (256·a, 256·b) is piece b of band a. -/
theorem panel1_sub_0_0 (c : Dev nD) :
    K.sub (KHost.panel1 m c) 0 0 (by omega) (by omega) = (m ((c : Thread nD τ).loc main_arg3) : Mat) := by
  funext i
  unfold K.sub KHost.panel1
  exact (cat3r_0 _ _ _ _ (i 0) _).trans ((cat4c_0 _ _ _ _ _ (i 0) (i 1)).trans (congrArg _ (eq_ix2 i).symm))
theorem panel1_sub_0_256 (c : Dev nD) :
    K.sub (KHost.panel1 m c) 0 256 (by omega) (by omega) = (m ((c : Thread nD τ).loc main_arg7) : Mat) := by
  funext i
  unfold K.sub KHost.panel1
  exact (cat3r_0 _ _ _ _ (i 0) _).trans ((cat4c_1 _ _ _ _ _ (i 0) (i 1)).trans (congrArg _ (eq_ix2 i).symm))
theorem panel1_sub_0_512 (c : Dev nD) :
    K.sub (KHost.panel1 m c) 0 512 (by omega) (by omega) = (m ((c : Thread nD τ).loc main_arg11) : Mat) := by
  funext i
  unfold K.sub KHost.panel1
  exact (cat3r_0 _ _ _ _ (i 0) _).trans ((cat4c_2 _ _ _ _ _ (i 0) (i 1)).trans (congrArg _ (eq_ix2 i).symm))
theorem panel1_sub_0_768 (c : Dev nD) :
    K.sub (KHost.panel1 m c) 0 768 (by omega) (by omega) = (m ((c : Thread nD τ).loc main_arg17) : Mat) := by
  funext i
  unfold K.sub KHost.panel1
  exact (cat3r_0 _ _ _ _ (i 0) _).trans ((cat4c_3 _ _ _ _ _ (i 0) (i 1)).trans (congrArg _ (eq_ix2 i).symm))
theorem panel1_sub_256_0 (c : Dev nD) :
    K.sub (KHost.panel1 m c) 256 0 (by omega) (by omega) = (m ((c : Thread nD τ).loc main_arg4) : Mat) := by
  funext i
  unfold K.sub KHost.panel1
  exact (cat3r_1 _ _ _ _ (i 0) _).trans ((cat4c_0 _ _ _ _ _ (i 0) (i 1)).trans (congrArg _ (eq_ix2 i).symm))
theorem panel1_sub_256_256 (c : Dev nD) :
    K.sub (KHost.panel1 m c) 256 256 (by omega) (by omega) = (m ((c : Thread nD τ).loc main_arg8) : Mat) := by
  funext i
  unfold K.sub KHost.panel1
  exact (cat3r_1 _ _ _ _ (i 0) _).trans ((cat4c_1 _ _ _ _ _ (i 0) (i 1)).trans (congrArg _ (eq_ix2 i).symm))
theorem panel1_sub_256_512 (c : Dev nD) :
    K.sub (KHost.panel1 m c) 256 512 (by omega) (by omega) = (m ((c : Thread nD τ).loc main_arg12) : Mat) := by
  funext i
  unfold K.sub KHost.panel1
  exact (cat3r_1 _ _ _ _ (i 0) _).trans ((cat4c_2 _ _ _ _ _ (i 0) (i 1)).trans (congrArg _ (eq_ix2 i).symm))
theorem panel1_sub_256_768 (c : Dev nD) :
    K.sub (KHost.panel1 m c) 256 768 (by omega) (by omega) = (m ((c : Thread nD τ).loc main_arg18) : Mat) := by
  funext i
  unfold K.sub KHost.panel1
  exact (cat3r_1 _ _ _ _ (i 0) _).trans ((cat4c_3 _ _ _ _ _ (i 0) (i 1)).trans (congrArg _ (eq_ix2 i).symm))
theorem panel1_sub_512_0 (c : Dev nD) :
    K.sub (KHost.panel1 m c) 512 0 (by omega) (by omega) = (m ((c : Thread nD τ).loc main_arg5) : Mat) := by
  funext i
  unfold K.sub KHost.panel1
  exact (cat3r_2 _ _ _ _ (i 0) _).trans ((cat4c_0 _ _ _ _ _ (i 0) (i 1)).trans (congrArg _ (eq_ix2 i).symm))
theorem panel1_sub_512_256 (c : Dev nD) :
    K.sub (KHost.panel1 m c) 512 256 (by omega) (by omega) = (m ((c : Thread nD τ).loc main_arg9) : Mat) := by
  funext i
  unfold K.sub KHost.panel1
  exact (cat3r_2 _ _ _ _ (i 0) _).trans ((cat4c_1 _ _ _ _ _ (i 0) (i 1)).trans (congrArg _ (eq_ix2 i).symm))
theorem panel1_sub_512_512 (c : Dev nD) :
    K.sub (KHost.panel1 m c) 512 512 (by omega) (by omega) = (m ((c : Thread nD τ).loc main_arg13) : Mat) := by
  funext i
  unfold K.sub KHost.panel1
  exact (cat3r_2 _ _ _ _ (i 0) _).trans ((cat4c_2 _ _ _ _ _ (i 0) (i 1)).trans (congrArg _ (eq_ix2 i).symm))
theorem panel1_sub_512_768 (c : Dev nD) :
    K.sub (KHost.panel1 m c) 512 768 (by omega) (by omega) = (m ((c : Thread nD τ).loc main_arg19) : Mat) := by
  funext i
  unfold K.sub KHost.panel1
  exact (cat3r_2 _ _ _ _ (i 0) _).trans ((cat4c_3 _ _ _ _ _ (i 0) (i 1)).trans (congrArg _ (eq_ix2 i).symm))

/-! The 512×512 panel. -/
theorem panel2_sub_0_0 (c : Dev nD) :
    K.sub (KHost.panel2 m c) 0 0 (by omega) (by omega) = (m ((c : Thread nD τ).loc main_arg14) : Mat) := by
  funext i
  unfold K.sub KHost.panel2
  exact (cat2r_0 _ _ _ (i 0) _).trans ((cat2c_0 _ _ _ (i 0) (i 1)).trans (congrArg _ (eq_ix2 i).symm))
theorem panel2_sub_0_256 (c : Dev nD) :
    K.sub (KHost.panel2 m c) 0 256 (by omega) (by omega) = (m ((c : Thread nD τ).loc main_arg20) : Mat) := by
  funext i
  unfold K.sub KHost.panel2
  exact (cat2r_0 _ _ _ (i 0) _).trans ((cat2c_1 _ _ _ (i 0) (i 1)).trans (congrArg _ (eq_ix2 i).symm))
theorem panel2_sub_256_0 (c : Dev nD) :
    K.sub (KHost.panel2 m c) 256 0 (by omega) (by omega) = (m ((c : Thread nD τ).loc main_arg15) : Mat) := by
  funext i
  unfold K.sub KHost.panel2
  exact (cat2r_1 _ _ _ (i 0) _).trans ((cat2c_0 _ _ _ (i 0) (i 1)).trans (congrArg _ (eq_ix2 i).symm))
theorem panel2_sub_256_256 (c : Dev nD) :
    K.sub (KHost.panel2 m c) 256 256 (by omega) (by omega) = (m ((c : Thread nD τ).loc main_arg21) : Mat) := by
  funext i
  unfold K.sub KHost.panel2
  exact (cat2r_1 _ _ _ (i 0) _).trans ((cat2c_1 _ _ _ (i 0) (i 1)).trans (congrArg _ (eq_ix2 i).symm))

/-! ## The cell's parameters as the body holds them -/

/-- The parameters cut from the two panels, with the biases and the candidate matrices, are the 24 arguments in order. -/
theorem PK_args (c : Dev nD) :
    K.PK (KHost.panel1 m c) (m ((c : Thread nD τ).loc main_arg6)) (m ((c : Thread nD τ).loc main_arg10)) (m ((c : Thread nD τ).loc main_arg16)) (m ((c : Thread nD τ).loc main_arg22)) (KHost.panel2 m c)
        (m ((c : Thread nD τ).loc main_arg23)) (m ((c : Thread nD τ).loc main_arg24)) (m ((c : Thread nD τ).loc main_arg25)) (m ((c : Thread nD τ).loc main_arg26))
      = (⟨m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26)⟩ : Params) := by
  unfold K.PK
  rw [panel1_sub_0_0 m c, panel1_sub_256_0 m c, panel1_sub_512_0 m c, panel1_sub_0_256 m c, panel1_sub_256_256 m c, panel1_sub_512_256 m c, panel1_sub_0_512 m c, panel1_sub_256_512 m c, panel1_sub_512_512 m c, panel2_sub_0_0 m c, panel2_sub_256_0 m c, panel1_sub_0_768 m c, panel1_sub_256_768 m c, panel1_sub_512_768 m c, panel2_sub_0_256 m c, panel2_sub_256_256 m c]

end Cert.Gdu.KPanel

end
-- ==== Proof.KVal.lean ====
/-
  From the blocks to the array: after the run the result array is the cell's row function of the argument arrays.

  Grid point t stages rows 1024·t .. 1024·t + 1023 of the three row inputs and of the result, and the ten other
  operands whole.  So what point t writes back is block t of one whole-array function — row b of the result is the
  cell's row function of row b of the inputs — and the 64 blocks cover the 65536 rows.  The panels' tiles are the
  argument matrices, so that function is `G` of the arguments.
-/
import proofs.«137307_j30425548325390_2_alg».proof.Proof.FrameKernelIdeal
import proofs.«137307_j30425548325390_2_alg».proof.Proof.KTail
import proofs.«137307_j30425548325390_2_alg».proof.Proof.KHost
import proofs.«137307_j30425548325390_2_alg».proof.Proof.KPanel

set_option maxRecDepth 16384

noncomputable section

namespace Cert.Gdu.KVal

open Cert.KernelIdeal Cert.KernelIdeal.Gen Cert.KernelIdeal.Fr Idealize.ShloMosaic Idealize.ShloMosaic.TcCoe Idealize.SL.Sem
open Idealize.ShloMosaic.ValueIdx Cert.RowDot Cert.Gdu
open Idealize.ShloMosaic.Pipeline (Dat)

variable (m : (ℓ : Loc nD τ Cert.KernelIdeal.sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The frame module's stored value is `K.body` of the buffers' contents: each load takes a whole buffer. -/
theorem pay13_eq (x0 x1 x2 : Vec Ideal S1024x256 .bf16) (x3 : Vec Ideal S768x1024 .bf16) (x4 x5 x6 x7 : Vec Ideal S256 .f32) (x8 : Vec Ideal S512x512 .bf16) (x9 x10 x11 : Vec Ideal S256x256 .bf16) (x12 : Vec Ideal S256 .f32) :
    pay13 x0 x1 x2 x3 x4 x5 x6 x7 x8 x9 x10 x11 x12 = K.body x0 x1 x2 x3 x4 x5 x6 x7 x8 x9 x10 x11 x12 := by
  unfold pay13 K.body
  simp only [View.ld_unit_zero (S := S1024x256) hz2, View.ld_unit_zero (S := S768x1024) hz2, View.ld_unit_zero (S := S256) hz1,
    View.ld_unit_zero (S := S512x512) hz2, View.ld_unit_zero (S := S256x256) hz2]

/-! ## The index maps, decided over the 64 grid points -/

/-- The row windows (the three inputs and the result) are at block (t, 0). -/
theorem row_facts : ∀ t : Fin cfg0.N,
    win0_13.index t (0 : Fin 2) = t.val ∧ win0_13.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The ten other windows stay at block 0. -/
theorem res_facts : ∀ t : Fin cfg0.N,
    win0_3.index t (0 : Fin 2) = 0
    ∧ win0_3.index t (1 : Fin 2) = 0
    ∧ win0_4.index t (0 : Fin 1) = 0
    ∧ win0_5.index t (0 : Fin 1) = 0
    ∧ win0_6.index t (0 : Fin 1) = 0
    ∧ win0_7.index t (0 : Fin 1) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 1) = 0 :=
  (by decide +kernel : ∀ t : Fin grid0.N, _)

/-! ## The resident operands' blocks are their arrays -/

theorem iblk3_eq (c : Dev nD) (t : Fin cfg0.N) : (iblk m c 3 t : S768x1024.Idx → EReal) = (V m c main_v6 : S768x1024.Idx → EReal) := by
  funext y
  show V m c main_v6 (((cfg0.win 3).blk t).view.emb y) = V m c main_v6 y
  refine congrArg _ (funext fun a => Fin.ext ?_)
  match a with
    | ⟨0, _⟩ => show win0_3.index t (0 : Fin 2) * 768 + 1 * (y 0).val = (y 0).val; have := (res_facts t).1; omega
    | ⟨1, _⟩ => show win0_3.index t (1 : Fin 2) * 1024 + 1 * (y 1).val = (y 1).val; have := (res_facts t).2.1; omega

theorem iblk4_eq (c : Dev nD) (t : Fin cfg0.N) : (iblk m c 4 t : S256.Idx → EReal) = (V m c main_arg6 : S256.Idx → EReal) := by
  funext y
  show V m c main_arg6 (((cfg0.win 4).blk t).view.emb y) = V m c main_arg6 y
  refine congrArg _ (funext fun a => Fin.ext ?_)
  match a with
    | ⟨0, _⟩ => show win0_4.index t (0 : Fin 1) * 256 + 1 * (y 0).val = (y 0).val; have := (res_facts t).2.2.1; omega

theorem iblk5_eq (c : Dev nD) (t : Fin cfg0.N) : (iblk m c 5 t : S256.Idx → EReal) = (V m c main_arg10 : S256.Idx → EReal) := by
  funext y
  show V m c main_arg10 (((cfg0.win 5).blk t).view.emb y) = V m c main_arg10 y
  refine congrArg _ (funext fun a => Fin.ext ?_)
  match a with
    | ⟨0, _⟩ => show win0_5.index t (0 : Fin 1) * 256 + 1 * (y 0).val = (y 0).val; have := (res_facts t).2.2.2.1; omega

theorem iblk6_eq (c : Dev nD) (t : Fin cfg0.N) : (iblk m c 6 t : S256.Idx → EReal) = (V m c main_arg16 : S256.Idx → EReal) := by
  funext y
  show V m c main_arg16 (((cfg0.win 6).blk t).view.emb y) = V m c main_arg16 y
  refine congrArg _ (funext fun a => Fin.ext ?_)
  match a with
    | ⟨0, _⟩ => show win0_6.index t (0 : Fin 1) * 256 + 1 * (y 0).val = (y 0).val; have := (res_facts t).2.2.2.2.1; omega

theorem iblk7_eq (c : Dev nD) (t : Fin cfg0.N) : (iblk m c 7 t : S256.Idx → EReal) = (V m c main_arg22 : S256.Idx → EReal) := by
  funext y
  show V m c main_arg22 (((cfg0.win 7).blk t).view.emb y) = V m c main_arg22 y
  refine congrArg _ (funext fun a => Fin.ext ?_)
  match a with
    | ⟨0, _⟩ => show win0_7.index t (0 : Fin 1) * 256 + 1 * (y 0).val = (y 0).val; have := (res_facts t).2.2.2.2.2.1; omega

theorem iblk8_eq (c : Dev nD) (t : Fin cfg0.N) : (iblk m c 8 t : S512x512.Idx → EReal) = (V m c main_v11 : S512x512.Idx → EReal) := by
  funext y
  show V m c main_v11 (((cfg0.win 8).blk t).view.emb y) = V m c main_v11 y
  refine congrArg _ (funext fun a => Fin.ext ?_)
  match a with
    | ⟨0, _⟩ => show win0_8.index t (0 : Fin 2) * 512 + 1 * (y 0).val = (y 0).val; have := (res_facts t).2.2.2.2.2.2.1; omega
    | ⟨1, _⟩ => show win0_8.index t (1 : Fin 2) * 512 + 1 * (y 1).val = (y 1).val; have := (res_facts t).2.2.2.2.2.2.2.1; omega

theorem iblk9_eq (c : Dev nD) (t : Fin cfg0.N) : (iblk m c 9 t : S256x256.Idx → EReal) = (V m c main_v12 : S256x256.Idx → EReal) := by
  funext y
  show V m c main_v12 (((cfg0.win 9).blk t).view.emb y) = V m c main_v12 y
  refine congrArg _ (funext fun a => Fin.ext ?_)
  match a with
    | ⟨0, _⟩ => show win0_9.index t (0 : Fin 2) * 256 + 1 * (y 0).val = (y 0).val; have := (res_facts t).2.2.2.2.2.2.2.2.1; omega
    | ⟨1, _⟩ => show win0_9.index t (1 : Fin 2) * 256 + 1 * (y 1).val = (y 1).val; have := (res_facts t).2.2.2.2.2.2.2.2.2.1; omega

theorem iblk10_eq (c : Dev nD) (t : Fin cfg0.N) : (iblk m c 10 t : S256x256.Idx → EReal) = (V m c main_v13 : S256x256.Idx → EReal) := by
  funext y
  show V m c main_v13 (((cfg0.win 10).blk t).view.emb y) = V m c main_v13 y
  refine congrArg _ (funext fun a => Fin.ext ?_)
  match a with
    | ⟨0, _⟩ => show win0_10.index t (0 : Fin 2) * 256 + 1 * (y 0).val = (y 0).val; have := (res_facts t).2.2.2.2.2.2.2.2.2.2.1; omega
    | ⟨1, _⟩ => show win0_10.index t (1 : Fin 2) * 256 + 1 * (y 1).val = (y 1).val; have := (res_facts t).2.2.2.2.2.2.2.2.2.2.2.1; omega

theorem iblk11_eq (c : Dev nD) (t : Fin cfg0.N) : (iblk m c 11 t : S256x256.Idx → EReal) = (V m c main_v14 : S256x256.Idx → EReal) := by
  funext y
  show V m c main_v14 (((cfg0.win 11).blk t).view.emb y) = V m c main_v14 y
  refine congrArg _ (funext fun a => Fin.ext ?_)
  match a with
    | ⟨0, _⟩ => show win0_11.index t (0 : Fin 2) * 256 + 1 * (y 0).val = (y 0).val; have := (res_facts t).2.2.2.2.2.2.2.2.2.2.2.2.1; omega
    | ⟨1, _⟩ => show win0_11.index t (1 : Fin 2) * 256 + 1 * (y 1).val = (y 1).val; have := (res_facts t).2.2.2.2.2.2.2.2.2.2.2.2.2.1; omega

theorem iblk12_eq (c : Dev nD) (t : Fin cfg0.N) : (iblk m c 12 t : S256.Idx → EReal) = (V m c main_arg26 : S256.Idx → EReal) := by
  funext y
  show V m c main_arg26 (((cfg0.win 12).blk t).view.emb y) = V m c main_arg26 y
  refine congrArg _ (funext fun a => Fin.ext ?_)
  match a with
    | ⟨0, _⟩ => show win0_12.index t (0 : Fin 1) * 256 + 1 * (y 0).val = (y 0).val; have := (res_facts t).2.2.2.2.2.2.2.2.2.2.2.2.2.2; omega

/-! ## The row inputs' blocks: row p of block t is row 1024·t + p of the array -/

theorem rowOf_iblk0 (c : Dev nD) (t : Fin cfg0.N) (p : Fin 1024) :
    rowOf (iblk m c 0 t : S1024x256.Idx → EReal) p = rowOf (V m c main_v15 : S65536x256.Idx → EReal) ⟨t.val * 1024 + p.val, by have := t.isLt; have h64 : cfg0.N = 64 := N_0; omega⟩ := by
  funext k
  show V m c main_v15 (((cfg0.win 0).blk t).view.emb (ix2 p k)) = V m c main_v15 (ix2 ⟨t.val * 1024 + p.val, _⟩ k)
  refine congrArg _ (funext fun a => Fin.ext ?_)
  obtain ⟨e0, e1, f0, f1, g0, g1, h0, h1⟩ := row_facts t
  match a with
  | ⟨0, _⟩ => show win0_0.index t (0 : Fin 2) * 1024 + 1 * p.val = t.val * 1024 + p.val; omega
  | ⟨1, _⟩ => show win0_0.index t (1 : Fin 2) * 256 + 1 * k.val = k.val; omega

theorem rowOf_iblk1 (c : Dev nD) (t : Fin cfg0.N) (p : Fin 1024) :
    rowOf (iblk m c 1 t : S1024x256.Idx → EReal) p = rowOf (V m c main_v16 : S65536x256.Idx → EReal) ⟨t.val * 1024 + p.val, by have := t.isLt; have h64 : cfg0.N = 64 := N_0; omega⟩ := by
  funext k
  show V m c main_v16 (((cfg0.win 1).blk t).view.emb (ix2 p k)) = V m c main_v16 (ix2 ⟨t.val * 1024 + p.val, _⟩ k)
  refine congrArg _ (funext fun a => Fin.ext ?_)
  obtain ⟨e0, e1, f0, f1, g0, g1, h0, h1⟩ := row_facts t
  match a with
  | ⟨0, _⟩ => show win0_1.index t (0 : Fin 2) * 1024 + 1 * p.val = t.val * 1024 + p.val; omega
  | ⟨1, _⟩ => show win0_1.index t (1 : Fin 2) * 256 + 1 * k.val = k.val; omega

theorem rowOf_iblk2 (c : Dev nD) (t : Fin cfg0.N) (p : Fin 1024) :
    rowOf (iblk m c 2 t : S1024x256.Idx → EReal) p = rowOf (V m c main_v17 : S65536x256.Idx → EReal) ⟨t.val * 1024 + p.val, by have := t.isLt; have h64 : cfg0.N = 64 := N_0; omega⟩ := by
  funext k
  show V m c main_v17 (((cfg0.win 2).blk t).view.emb (ix2 p k)) = V m c main_v17 (ix2 ⟨t.val * 1024 + p.val, _⟩ k)
  refine congrArg _ (funext fun a => Fin.ext ?_)
  obtain ⟨e0, e1, f0, f1, g0, g1, h0, h1⟩ := row_facts t
  match a with
  | ⟨0, _⟩ => show win0_2.index t (0 : Fin 2) * 1024 + 1 * p.val = t.val * 1024 + p.val; omega
  | ⟨1, _⟩ => show win0_2.index t (1 : Fin 2) * 256 + 1 * k.val = k.val; omega

/-! ## What each point writes back -/

/-- The result as the region's arrays give it: row (i 0) through the cell's row function, at column (i 1). -/
def GV (c : Dev nD) : S65536x256.Idx → EReal := fun i =>
  outRow (K.PK (V m c main_v6) (V m c main_arg6) (V m c main_arg10) (V m c main_arg16) (V m c main_arg22) (V m c main_v11)
      (V m c main_v12) (V m c main_v13) (V m c main_v14) (V m c main_arg26))
    (rowOf (V m c main_v15 : S65536x256.Idx → EReal) (i 0)) (rowOf (V m c main_v16 : S65536x256.Idx → EReal) (i 0))
    (rowOf (V m c main_v17 : S65536x256.Idx → EReal) (i 0)) (i 1)

/-- Point t writes back block t of `GV`. -/
theorem flushed_eq (c : Dev nD) (t : Fin cfg0.N) :
    (dats m 0 c).flushed 13 t = ((cfg0.win 13).blk t).view.read (Elt Ideal) (GV m c) := by
  show (cfg0.win 13).cut (grid0.coords t) ((dats m 0 c).after 13 t) = _
  rw [after13]
  unfold out13
  rw [View.canon_unit_zero hz2, pay13_eq]
  funext y
  obtain ⟨p, q, rfl⟩ : ∃ (p : Fin 1024) (q : Fin 256), y = ix2 p q := ⟨y 0, y 1, eq_ix2 y⟩
  show K.body (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p q) = GV m c (((cfg0.win 13).blk t).view.emb (ix2 p q))
  refine (K.body_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p q).trans ?_
  obtain ⟨e0, e1, -⟩ := row_facts t
  have hi : ((cfg0.win 13).blk t).view.emb (ix2 p q) = ix2 (⟨t.val * 1024 + p.val, by have := t.isLt; have h64 : cfg0.N = 64 := N_0; omega⟩ : Fin 65536) q := by
    funext a; apply Fin.ext
    match a with
    | ⟨0, _⟩ => show win0_13.index t (0 : Fin 2) * 1024 + 1 * p.val = t.val * 1024 + p.val; omega
    | ⟨1, _⟩ => show win0_13.index t (1 : Fin 2) * 256 + 1 * q.val = q.val; omega
  rw [hi]
  unfold GV
  rw [rowOf_iblk0 m c t p, rowOf_iblk1 m c t p, rowOf_iblk2 m c t p]
  rw [iblk3_eq m c t, iblk4_eq m c t, iblk5_eq m c t, iblk6_eq m c t, iblk7_eq m c t, iblk8_eq m c t, iblk9_eq m c t, iblk10_eq m c t, iblk11_eq m c t, iblk12_eq m c t]
  try rfl

/-- An index of the array is in point t's block iff each coordinate is in the block's range. -/
theorem mem_blk (t : Fin cfg0.N) (i : S65536x256.Idx) :
    i ∈ ((cfg0.win 13).blk t).view.set ↔ ∀ a : Fin 2, win0_13.index t a * S1024x256.size a ≤ (i a).val ∧ (i a).val < win0_13.index t a * S1024x256.size a + S1024x256.size a := by
  show i ∈ ((View.whole main_v18).slice (win0_13.rect t)).set ↔ _
  rw [View.set_slice_whole, Rect.mem_set_unit]
  exact Iff.rfl

/-- Every row is in some point's block: row b in block b / 1024. -/
theorem cover (i : S65536x256.Idx) : ∃ t : Fin cfg0.N, (cfg0.win 13).flush t = true ∧ i ∈ ((cfg0.win 13).blk t).view.set := by
  have hi0 : (i 0).val < 65536 := idx2_lt0 i
  have hi1 : (i 1).val < 256 := idx2_lt1 i
  have h64 : cfg0.N = 64 := N_0
  obtain ⟨t0, ht0⟩ : ∃ t0 : Fin cfg0.N, t0.val = (i 0).val / 1024 := ⟨⟨(i 0).val / 1024, by omega⟩, rfl⟩
  refine ⟨t0, flush0_13 t0, ?_⟩
  rw [mem_blk]
  obtain ⟨e0, e1, -⟩ := row_facts t0
  intro a
  match a with
  | ⟨0, _⟩ => show win0_13.index t0 (0 : Fin 2) * 1024 ≤ (i 0).val ∧ (i 0).val < win0_13.index t0 (0 : Fin 2) * 1024 + 1024; omega
  | ⟨1, _⟩ => show win0_13.index t0 (1 : Fin 2) * 256 ≤ (i 1).val ∧ (i 1).val < win0_13.index t0 (1 : Fin 2) * 256 + 256; omega

/-- The result array after the run. -/
theorem final (c : Dev nD) : (dats m 0 c).arrAt 13 cfg0.N = GV m c :=
  (dats m 0 c).arrAt_eq_of_cover 13 (GV m c) (fun t _ => flushed_eq m c t) cover

/-! ## In terms of the arguments -/

/-- The same function with the region's arrays read back to the arguments. -/
theorem GV_eq (c : Dev nD) :
    GV m c = G ⟨m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26)⟩
      (m ((c : Thread nD τ).loc main_arg0) : S65536x256.Idx → EReal) (m ((c : Thread nD τ).loc main_arg1) : S65536x256.Idx → EReal) (m ((c : Thread nD τ).loc main_arg2) : S65536x256.Idx → EReal) := by
  unfold GV G
  rw [KHost.V_x m c, KHost.V_z m c, KHost.V_h m c, KHost.V_panel1 m c, KHost.V_panel2 m c, KHost.V_ux m c, KHost.V_uz m c, KHost.V_uh m c,
    V_main_arg6 m c, V_main_arg10 m c, V_main_arg16 m c, V_main_arg22 m c, V_main_arg26 m c, KPanel.PK_args m c]

/-- The kernel's run: the result array at `G` of the arguments, every argument as launched. -/
theorem run : θ_run defs (onTc (τ := τ) (main (F := Ideal))) ⟨m, fun _ => 0, ρ⟩ fun r => ∀ c : Dev nD,
      r.2.mem ((c.tc : Thread nD τ).loc main_v18)
        = G ⟨m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26)⟩
            (m ((c : Thread nD τ).loc main_arg0) : S65536x256.Idx → EReal) (m ((c : Thread nD τ).loc main_arg1) : S65536x256.Idx → EReal) (m ((c : Thread nD τ).loc main_arg2) : S65536x256.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun r h c => ⟨(((h c).1 13).trans (final m c)).trans (GV_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 4).trans (((dats m 0 c).arrAt_in 4 rfl _).trans ((A_eq m c 4).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 5).trans (((dats m 0 c).arrAt_in 5 rfl _).trans ((A_eq m c 5).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 6).trans (((dats m 0 c).arrAt_in 6 rfl _).trans ((A_eq m c 6).trans (V_main_arg16 m c))),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).1 7).trans (((dats m 0 c).arrAt_in 7 rfl _).trans ((A_eq m c 7).trans (V_main_arg22 m c))),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).1 12).trans (((dats m 0 c).arrAt_in 12 rfl _).trans ((A_eq m c 12).trans (V_main_arg26 m c)))⟩)
    (run_main m ρ)

end Cert.Gdu.KVal

end
-- ==== Proof.RefIsG.lean ====
/-
  The reference program computes the gated cell.

  The reference is a straight-line program of 117 array operations.  Read one entry at a time, each of its 21
  matrix products is a row of its left operand times its right operand, each bias broadcast reads the bias at
  the entry's column, each constant broadcast is the pattern of one, and every other operation acts entrywise.
  The named quantities are met in program order — the gates f and e, the damped inputs z~ and h~, the gates g
  and r, the shared projection, the four candidates — and each is shown, as a whole array, to be the matching
  function of the cell applied to the entry's batch row; the damped inputs are read by several later products
  and the gates g and r by several operations of the mixture, so each is established once and then used.  The
  last 19 operations are the mixture.
-/
import proofs.«137307_j30425548325390_2_alg».proof.Proof.Gen.ReferenceIdeal.Read
import proofs.«137307_j30425548325390_2_alg».proof.Proof.Spec

noncomputable section

open scoped BigOperators

namespace Cert.Gdu.Ref

open Cert.ReferenceIdeal Cert.ReferenceIdeal.Read Idealize.ShloMosaic Idealize.ShloMosaic.ValueIdx Cert.RowDot Cert.Gdu

/-- The sum a product's entry is read as: row (i 0) of the left operand times the right operand, at column (i 1). -/
theorem dot_entry (l : SB.Idx → EReal) (r : SW.Idx → EReal) (i : SB.Idx) :
    ∑ k : Fin 256, l (lidx_main_v0 i k) * r (ridx_main_v0 i k) = rowDot (rowOf l (i 0)) r (i 1) := by
  unfold rowDot rowOf
  refine Finset.sum_congr rfl fun k _ => ?_
  have el : lidx_main_v0 i k = ix2 (i 0) k := funext fun a => by
    match a with
    | ⟨0, _⟩ => rfl
    | ⟨1, _⟩ => rfl
  have er : ridx_main_v0 i k = ix2 k (i 1) := funext fun a => by
    match a with
    | ⟨0, _⟩ => rfl
    | ⟨1, _⟩ => rfl
  exact congrArg₂ (fun a b : EReal => a * b) (congrArg l el) (congrArg r er)

/-- A bias broadcast over the batch reads the bias at the entry's column. -/
theorem bias_idx (i : SB.Idx) : idx_main_v5 (idx_main_v6 i) = ix1 (i 1) := funext fun a => by
  match a with
  | ⟨0, _⟩ => rfl

/-- Row (i 0) of an array at column (i 1) is the array at i. -/
theorem rowOf_self (x : SB.Idx → EReal) (i : SB.Idx) : rowOf x (i 0) (i 1) = x i := congrArg x (eq_ix2 i).symm

/-! ## The operations that are not entrywise, one entry at a time -/

/-! The products whose operands are arguments. -/
theorem v0_at (l : SB.Idx → EReal) (r : SW.Idx → EReal) (i : SB.Idx) :
    val_main_v0 (F := Ideal) l r i = rowDot (rowOf l (i 0)) r (i 1) :=
  (val_main_v0_apply l r i).trans (dot_entry l r i)
theorem v1_at (l : SB.Idx → EReal) (r : SW.Idx → EReal) (i : SB.Idx) :
    val_main_v1 (F := Ideal) l r i = rowDot (rowOf l (i 0)) r (i 1) :=
  (val_main_v1_apply l r i).trans (dot_entry l r i)
theorem v3_at (l : SB.Idx → EReal) (r : SW.Idx → EReal) (i : SB.Idx) :
    val_main_v3 (F := Ideal) l r i = rowDot (rowOf l (i 0)) r (i 1) :=
  (val_main_v3_apply l r i).trans (dot_entry l r i)
theorem v15_at (l : SB.Idx → EReal) (r : SW.Idx → EReal) (i : SB.Idx) :
    val_main_v15 (F := Ideal) l r i = rowDot (rowOf l (i 0)) r (i 1) :=
  (val_main_v15_apply l r i).trans (dot_entry l r i)
theorem v16_at (l : SB.Idx → EReal) (r : SW.Idx → EReal) (i : SB.Idx) :
    val_main_v16 (F := Ideal) l r i = rowDot (rowOf l (i 0)) r (i 1) :=
  (val_main_v16_apply l r i).trans (dot_entry l r i)
theorem v18_at (l : SB.Idx → EReal) (r : SW.Idx → EReal) (i : SB.Idx) :
    val_main_v18 (F := Ideal) l r i = rowDot (rowOf l (i 0)) r (i 1) :=
  (val_main_v18_apply l r i).trans (dot_entry l r i)
theorem v30_at (l : SB.Idx → EReal) (r : SW.Idx → EReal) (i : SB.Idx) :
    val_main_v30 (F := Ideal) l r i = rowDot (rowOf l (i 0)) r (i 1) :=
  (val_main_v30_apply l r i).trans (dot_entry l r i)
theorem v31_at (l : SB.Idx → EReal) (r : SW.Idx → EReal) (i : SB.Idx) :
    val_main_v31 (F := Ideal) l r i = rowDot (rowOf l (i 0)) r (i 1) :=
  (val_main_v31_apply l r i).trans (dot_entry l r i)
theorem v33_at (l : SB.Idx → EReal) (r : SW.Idx → EReal) (i : SB.Idx) :
    val_main_v33 (F := Ideal) l r i = rowDot (rowOf l (i 0)) r (i 1) :=
  (val_main_v33_apply l r i).trans (dot_entry l r i)
theorem v48_at (l : SB.Idx → EReal) (r : SW.Idx → EReal) (i : SB.Idx) :
    val_main_v48 (F := Ideal) l r i = rowDot (rowOf l (i 0)) r (i 1) :=
  (val_main_v48_apply l r i).trans (dot_entry l r i)
theorem v49_at (l : SB.Idx → EReal) (r : SW.Idx → EReal) (i : SB.Idx) :
    val_main_v49 (F := Ideal) l r i = rowDot (rowOf l (i 0)) r (i 1) :=
  (val_main_v49_apply l r i).trans (dot_entry l r i)
theorem v51_at (l : SB.Idx → EReal) (r : SW.Idx → EReal) (i : SB.Idx) :
    val_main_v51 (F := Ideal) l r i = rowDot (rowOf l (i 0)) r (i 1) :=
  (val_main_v51_apply l r i).trans (dot_entry l r i)
theorem v66_at (l : SB.Idx → EReal) (r : SW.Idx → EReal) (i : SB.Idx) :
    val_main_v66 (F := Ideal) l r i = rowDot (rowOf l (i 0)) r (i 1) :=
  (val_main_v66_apply l r i).trans (dot_entry l r i)
theorem v70_at (l : SB.Idx → EReal) (r : SW.Idx → EReal) (i : SB.Idx) :
    val_main_v70 (F := Ideal) l r i = rowDot (rowOf l (i 0)) r (i 1) :=
  (val_main_v70_apply l r i).trans (dot_entry l r i)
theorem v72_at (l : SB.Idx → EReal) (r : SW.Idx → EReal) (i : SB.Idx) :
    val_main_v72 (F := Ideal) l r i = rowDot (rowOf l (i 0)) r (i 1) :=
  (val_main_v72_apply l r i).trans (dot_entry l r i)

/-! The bias broadcasts. -/
theorem v6_at (b : Sv.Idx → EReal) (i : SB.Idx) : val_main_v6 (F := Ideal) b i = b (ix1 (i 1)) := by
  rw [val_main_v6_apply, val_main_v5_apply]
  exact congrArg b (bias_idx i)
theorem v21_at (b : Sv.Idx → EReal) (i : SB.Idx) : val_main_v21 (F := Ideal) b i = b (ix1 (i 1)) := by
  rw [val_main_v21_apply, val_main_v20_apply]
  exact congrArg b (bias_idx i)
theorem v40_at (b : Sv.Idx → EReal) (i : SB.Idx) : val_main_v40 (F := Ideal) b i = b (ix1 (i 1)) := by
  rw [val_main_v40_apply, val_main_v39_apply]
  exact congrArg b (bias_idx i)
theorem v58_at (b : Sv.Idx → EReal) (i : SB.Idx) : val_main_v58 (F := Ideal) b i = b (ix1 (i 1)) := by
  rw [val_main_v58_apply, val_main_v57_apply]
  exact congrArg b (bias_idx i)
theorem v68_at (b : Sv.Idx → EReal) (i : SB.Idx) : val_main_v68 (F := Ideal) b i = b (ix1 (i 1)) := by
  rw [val_main_v68_apply, val_main_v67_apply]
  exact congrArg b (bias_idx i)

/-! The constant broadcasts: every entry is the pattern of one. -/
theorem v10_at (i : SB.Idx) : val_main_v10 (F := Ideal) i = one := by
  rw [val_main_v10_apply]; rfl
theorem v12_at (i : SB.Idx) : val_main_v12 (F := Ideal) i = one := by
  rw [val_main_v12_apply]; rfl
theorem v25_at (i : SB.Idx) : val_main_v25 (F := Ideal) i = one := by
  rw [val_main_v25_apply]; rfl
theorem v27_at (i : SB.Idx) : val_main_v27 (F := Ideal) i = one := by
  rw [val_main_v27_apply]; rfl
theorem v44_at (i : SB.Idx) : val_main_v44 (F := Ideal) i = one := by
  rw [val_main_v44_apply]; rfl
theorem v46_at (i : SB.Idx) : val_main_v46 (F := Ideal) i = one := by
  rw [val_main_v46_apply]; rfl
theorem v62_at (i : SB.Idx) : val_main_v62 (F := Ideal) i = one := by
  rw [val_main_v62_apply]; rfl
theorem v64_at (i : SB.Idx) : val_main_v64 (F := Ideal) i = one := by
  rw [val_main_v64_apply]; rfl
theorem v88_at (i : SB.Idx) : val_main_v88 (F := Ideal) i = one := by
  rw [val_main_v88_apply]; rfl
theorem v93_at (i : SB.Idx) : val_main_v93 (F := Ideal) i = one := by
  rw [val_main_v93_apply]; rfl
theorem v98_at (i : SB.Idx) : val_main_v98 (F := Ideal) i = one := by
  rw [val_main_v98_apply]; rfl
theorem v100_at (i : SB.Idx) : val_main_v100 (F := Ideal) i = one := by
  rw [val_main_v100_apply]; rfl

section Stages

variable (P : Params) (x0 x1 x2 : SB.Idx → EReal)

/-! ## The gates f and e and the damped inputs -/

/-- The gate f. -/
theorem v13_at (i : SB.Idx) :
    val_main_v13 (F := Ideal) x0 x1 x2 P.Wfx P.Wfz P.Wfh P.bf i
      = fGate P (rowOf x0 (i 0)) (rowOf x1 (i 0)) (rowOf x2 (i 0)) (i 1) := by
  simp only [val_main_v13_apply, val_main_v11_apply, val_main_v9_apply, val_main_v8_apply, val_main_v7_apply,
    val_main_v4_apply, val_main_v2_apply, v12_at, v10_at, v0_at, v1_at, v3_at, v6_at]
  rfl
/-- The damped input  z~ = f·z. -/
theorem v14_at (i : SB.Idx) :
    val_main_v14 (F := Ideal) x0 x1 x2 P.Wfx P.Wfz P.Wfh P.bf i
      = zTil P (rowOf x0 (i 0)) (rowOf x1 (i 0)) (rowOf x2 (i 0)) (i 1) := by
  rw [val_main_v14_apply, v13_at]
  show _ = _ * rowOf x1 (i 0) (i 1)
  rw [rowOf_self]
  rfl
theorem v14_eq :
    val_main_v14 (F := Ideal) x0 x1 x2 P.Wfx P.Wfz P.Wfh P.bf
      = fun i => zTil P (rowOf x0 (i 0)) (rowOf x1 (i 0)) (rowOf x2 (i 0)) (i 1) :=
  funext fun i => v14_at P x0 x1 x2 i
/-- The gate e. -/
theorem v28_at (i : SB.Idx) :
    val_main_v28 (F := Ideal) x0 x1 x2 P.Wex P.Wez P.Weh P.be i
      = eGate P (rowOf x0 (i 0)) (rowOf x1 (i 0)) (rowOf x2 (i 0)) (i 1) := by
  simp only [val_main_v28_apply, val_main_v26_apply, val_main_v24_apply, val_main_v23_apply, val_main_v22_apply,
    val_main_v19_apply, val_main_v17_apply, v27_at, v25_at, v15_at, v16_at, v18_at, v21_at]
  rfl
/-- The damped input  h~ = e·h. -/
theorem v29_at (i : SB.Idx) :
    val_main_v29 (F := Ideal) x0 x1 x2 P.Wex P.Wez P.Weh P.be i
      = hTil P (rowOf x0 (i 0)) (rowOf x1 (i 0)) (rowOf x2 (i 0)) (i 1) := by
  rw [val_main_v29_apply, v28_at]
  show _ = _ * rowOf x2 (i 0) (i 1)
  rw [rowOf_self]
  rfl
theorem v29_eq :
    val_main_v29 (F := Ideal) x0 x1 x2 P.Wex P.Wez P.Weh P.be
      = fun i => hTil P (rowOf x0 (i 0)) (rowOf x1 (i 0)) (rowOf x2 (i 0)) (i 1) :=
  funext fun i => v29_at P x0 x1 x2 i

/-! The products whose left operand is a damped input: a row of z~ (of h~) is z~ (h~) of the batch row. -/
theorem v35_at (W : SW.Idx → EReal) (i : SB.Idx) :
    val_main_v35 (F := Ideal) x0 x1 x2 P.Wfx P.Wfz P.Wfh P.bf W i
      = rowDot (zTil P (rowOf x0 (i 0)) (rowOf x1 (i 0)) (rowOf x2 (i 0))) W (i 1) := by
  rw [val_main_v35_apply, v14_eq]
  exact dot_entry (fun j => zTil P (rowOf x0 (j 0)) (rowOf x1 (j 0)) (rowOf x2 (j 0)) (j 1)) W i
theorem v37_at (W : SW.Idx → EReal) (i : SB.Idx) :
    val_main_v37 (F := Ideal) x0 x1 x2 P.Wex P.Wez P.Weh P.be W i
      = rowDot (hTil P (rowOf x0 (i 0)) (rowOf x1 (i 0)) (rowOf x2 (i 0))) W (i 1) := by
  rw [val_main_v37_apply, v29_eq]
  exact dot_entry (fun j => hTil P (rowOf x0 (j 0)) (rowOf x1 (j 0)) (rowOf x2 (j 0)) (j 1)) W i
theorem v53_at (W : SW.Idx → EReal) (i : SB.Idx) :
    val_main_v53 (F := Ideal) x0 x1 x2 P.Wfx P.Wfz P.Wfh P.bf W i
      = rowDot (zTil P (rowOf x0 (i 0)) (rowOf x1 (i 0)) (rowOf x2 (i 0))) W (i 1) := by
  rw [val_main_v53_apply, v14_eq]
  exact dot_entry (fun j => zTil P (rowOf x0 (j 0)) (rowOf x1 (j 0)) (rowOf x2 (j 0)) (j 1)) W i
theorem v55_at (W : SW.Idx → EReal) (i : SB.Idx) :
    val_main_v55 (F := Ideal) x0 x1 x2 P.Wex P.Wez P.Weh P.be W i
      = rowDot (hTil P (rowOf x0 (i 0)) (rowOf x1 (i 0)) (rowOf x2 (i 0))) W (i 1) := by
  rw [val_main_v55_apply, v29_eq]
  exact dot_entry (fun j => hTil P (rowOf x0 (j 0)) (rowOf x1 (j 0)) (rowOf x2 (j 0)) (j 1)) W i
theorem v71_at (W : SW.Idx → EReal) (i : SB.Idx) :
    val_main_v71 (F := Ideal) x0 x1 x2 P.Wfx P.Wfz P.Wfh P.bf W i
      = rowDot (zTil P (rowOf x0 (i 0)) (rowOf x1 (i 0)) (rowOf x2 (i 0))) W (i 1) := by
  rw [val_main_v71_apply, v14_eq]
  exact dot_entry (fun j => zTil P (rowOf x0 (j 0)) (rowOf x1 (j 0)) (rowOf x2 (j 0)) (j 1)) W i
theorem v73_at (W : SW.Idx → EReal) (i : SB.Idx) :
    val_main_v73 (F := Ideal) x0 x1 x2 P.Wex P.Wez P.Weh P.be W i
      = rowDot (hTil P (rowOf x0 (i 0)) (rowOf x1 (i 0)) (rowOf x2 (i 0))) W (i 1) := by
  rw [val_main_v73_apply, v29_eq]
  exact dot_entry (fun j => hTil P (rowOf x0 (j 0)) (rowOf x1 (j 0)) (rowOf x2 (j 0)) (j 1)) W i

/-! ## The gates g and r -/

/-- The gate g. -/
theorem v47_at (i : SB.Idx) :
    val_main_v47 (F := Ideal) x0 x1 x2 P.Wfx P.Wfz P.Wfh P.bf P.Wex P.Wez P.Weh P.be P.Wgx P.Wgz P.Wgh P.Wgzt P.Wght P.bg i
      = gGate P (rowOf x0 (i 0)) (rowOf x1 (i 0)) (rowOf x2 (i 0)) (i 1) := by
  simp only [val_main_v47_apply, val_main_v45_apply, val_main_v43_apply, val_main_v42_apply, val_main_v41_apply,
    val_main_v38_apply, val_main_v36_apply, val_main_v34_apply, val_main_v32_apply, v46_at, v44_at, v30_at,
    v31_at, v33_at, v35_at, v37_at, v40_at]
  rfl
/-- The gate r. -/
theorem v65_at (i : SB.Idx) :
    val_main_v65 (F := Ideal) x0 x1 x2 P.Wfx P.Wfz P.Wfh P.bf P.Wex P.Wez P.Weh P.be P.Wrx P.Wrz P.Wrh P.Wrzt P.Wrht P.br i
      = rGate P (rowOf x0 (i 0)) (rowOf x1 (i 0)) (rowOf x2 (i 0)) (i 1) := by
  simp only [val_main_v65_apply, val_main_v63_apply, val_main_v61_apply, val_main_v60_apply, val_main_v59_apply,
    val_main_v56_apply, val_main_v54_apply, val_main_v52_apply, val_main_v50_apply, v64_at, v62_at, v48_at,
    v49_at, v51_at, v53_at, v55_at, v58_at]
  rfl

/-! ## The shared projection and the four candidates -/

/-- The shared projection  x·Wux + bu. -/
theorem v69_at (i : SB.Idx) :
    val_main_v69 (F := Ideal) x0 P.Wux P.bu i
      = ux P (rowOf x0 (i 0)) (i 1) := by
  simp only [val_main_v69_apply, v66_at, v68_at]
  rfl
/-- The candidate read from z~ and h~. -/
theorem v76_at (i : SB.Idx) :
    val_main_v76 (F := Ideal) x0 x1 x2 P.Wfx P.Wfz P.Wfh P.bf P.Wex P.Wez P.Weh P.be P.Wux P.Wuz P.Wuh P.bu i
      = cand P (rowOf x0 (i 0)) (zTil P (rowOf x0 (i 0)) (rowOf x1 (i 0)) (rowOf x2 (i 0))) (hTil P (rowOf x0 (i 0)) (rowOf x1 (i 0)) (rowOf x2 (i 0))) (i 1) := by
  simp only [val_main_v76_apply, val_main_v75_apply, val_main_v74_apply, v69_at, v71_at, v73_at]
  rfl
/-- The candidate read from z and h~. -/
theorem v79_at (i : SB.Idx) :
    val_main_v79 (F := Ideal) x0 x1 x2 P.Wex P.Wez P.Weh P.be P.Wux P.Wuz P.Wuh P.bu i
      = cand P (rowOf x0 (i 0)) (rowOf x1 (i 0)) (hTil P (rowOf x0 (i 0)) (rowOf x1 (i 0)) (rowOf x2 (i 0))) (i 1) := by
  simp only [val_main_v79_apply, val_main_v78_apply, val_main_v77_apply, v69_at, v70_at, v73_at]
  rfl
/-- The candidate read from z~ and h. -/
theorem v82_at (i : SB.Idx) :
    val_main_v82 (F := Ideal) x0 x1 x2 P.Wfx P.Wfz P.Wfh P.bf P.Wux P.Wuz P.Wuh P.bu i
      = cand P (rowOf x0 (i 0)) (zTil P (rowOf x0 (i 0)) (rowOf x1 (i 0)) (rowOf x2 (i 0))) (rowOf x2 (i 0)) (i 1) := by
  simp only [val_main_v82_apply, val_main_v81_apply, val_main_v80_apply, v69_at, v71_at, v72_at]
  rfl
/-- The candidate read from z and h. -/
theorem v85_at (i : SB.Idx) :
    val_main_v85 (F := Ideal) x0 x1 x2 P.Wux P.Wuz P.Wuh P.bu i
      = cand P (rowOf x0 (i 0)) (rowOf x1 (i 0)) (rowOf x2 (i 0)) (i 1) := by
  simp only [val_main_v85_apply, val_main_v84_apply, val_main_v83_apply, v69_at, v70_at, v72_at]
  rfl

/-! ## The mixture -/

/-- The mixture: every entry of the reference's result is the cell's result row at that entry's column. -/
theorem v104_at (i : SB.Idx) :
    val_main_v104 (F := Ideal) x0 x1 x2 P.Wfx P.Wfz P.Wfh P.bf P.Wex P.Wez P.Weh P.be P.Wgx P.Wgz P.Wgh P.Wgzt P.Wght P.bg P.Wrx P.Wrz P.Wrh P.Wrzt P.Wrht P.br P.Wux P.Wuz P.Wuh P.bu i
      = outRow P (rowOf x0 (i 0)) (rowOf x1 (i 0)) (rowOf x2 (i 0)) (i 1) := by
  simp only [val_main_v104_apply, val_main_v97_apply, val_main_v92_apply, val_main_v87_apply, val_main_v86_apply,
    val_main_v91_apply, val_main_v90_apply, val_main_v89_apply, val_main_v96_apply, val_main_v95_apply,
    val_main_v94_apply, val_main_v103_apply, val_main_v102_apply, val_main_v99_apply, val_main_v101_apply,
    v47_at, v65_at, v76_at, v88_at, v79_at, v93_at, v82_at, v98_at, v100_at, v85_at]
  rfl

end Stages

/-- The reference's result, as a function of its 27 arguments, is the cell `G` with the 24 parameters in the
    order of the arguments. -/
theorem ref_is_G (x0 x1 x2 : (⟨S65536x256, .f32⟩ : BufTy).Contents (Elt Ideal)) (x3 x4 x5 : (⟨S256x256, .f32⟩ : BufTy).Contents (Elt Ideal)) (x6 : (⟨S256, .f32⟩ : BufTy).Contents (Elt Ideal)) (x7 x8 x9 : (⟨S256x256, .f32⟩ : BufTy).Contents (Elt Ideal)) (x10 : (⟨S256, .f32⟩ : BufTy).Contents (Elt Ideal)) (x11 x12 x13 x14 x15 : (⟨S256x256, .f32⟩ : BufTy).Contents (Elt Ideal)) (x16 : (⟨S256, .f32⟩ : BufTy).Contents (Elt Ideal)) (x17 x18 x19 x20 x21 : (⟨S256x256, .f32⟩ : BufTy).Contents (Elt Ideal)) (x22 : (⟨S256, .f32⟩ : BufTy).Contents (Elt Ideal)) (x23 x24 x25 : (⟨S256x256, .f32⟩ : BufTy).Contents (Elt Ideal)) (x26 : (⟨S256, .f32⟩ : BufTy).Contents (Elt Ideal)) :
    Cert.ReferenceIdeal.Read.val_main_v104 (F := Ideal) x0 x1 x2 x3 x4 x5 x6 x7 x8 x9 x10 x11 x12 x13 x14 x15 x16 x17 x18 x19 x20 x21 x22 x23 x24 x25 x26
      = Cert.Gdu.G ⟨x3, x4, x5, x6, x7, x8, x9, x10, x11, x12, x13, x14, x15, x16, x17, x18, x19, x20, x21, x22, x23, x24, x25, x26⟩ x0 x1 x2 :=
  funext fun i => v104_at ⟨x3, x4, x5, x6, x7, x8, x9, x10, x11, x12, x13, x14, x15, x16, x17, x18, x19, x20, x21, x22, x23, x24, x25, x26⟩ x0 x1 x2 i

end Cert.Gdu.Ref

end
-- ==== Proof.lean ====
/-
  The certificate of the gated cell: a fused kernel against the plain reference.

  The kernel changes the inputs' and weights' float format, lays the gates' weight matrices out as two panels, and
  computes, 1024 batch rows at a time, two fused products whose column bands are the gates' sums, two stacked products
  for the candidates, and the mixture factored by the gate r.  The reference computes every product separately and
  mixes left to right.  At the exact values a change of format is the identity, a product against a panel's band is
  a product against the matrix laid there, a sum over a concatenated axis is the sum of the pieces' sums, and the two
  mixtures agree because a logistic value is a real number in [0, 1], by which multiplication distributes over any
  sum of extended reals.  So both result arrays are `Cert.Gdu.G` of the arguments (Proof/Spec.lean): the kernel's by
  Proof/KVal.lean (over the frame run of Proof/FrameKernelIdeal.lean), the reference's by Proof/RefIsG.lean (over its
  generated run).  Each program's frame is its run with the result dropped; the idealization rewrote nothing.
-/
import proofs.«137307_j30425548325390_2_alg».proof.Defs
import proofs.«137307_j30425548325390_2_alg».proof.Proof.Gen.Kernel
import proofs.«137307_j30425548325390_2_alg».proof.Proof.Gen.KernelIdeal
import proofs.«137307_j30425548325390_2_alg».proof.Proof.Gen.ReferenceIdeal
import proofs.«137307_j30425548325390_2_alg».proof.Proof.Gen.Pre_finite_inputs
import proofs.«137307_j30425548325390_2_alg».proof.Proof.Gen.ReferenceIdeal.Run
import proofs.«137307_j30425548325390_2_alg».proof.Proof.Gen.ReferenceIdeal.Read
import proofs.«137307_j30425548325390_2_alg».proof.Proof.FrameKernel
import proofs.«137307_j30425548325390_2_alg».proof.Proof.FrameKernelIdeal
import proofs.«137307_j30425548325390_2_alg».proof.Proof.KVal
import proofs.«137307_j30425548325390_2_alg».proof.Proof.RefIsG
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization applied no rewrite. -/
theorem preserves : Cert.preserves_Kernel_KernelIdeal := trivial

set_option maxHeartbeats 2000000 in
/-- Both programs end with the result at `G` of the arguments, from memories agreeing on the arguments. -/
theorem algebraic : Cert.algebraic_KernelIdeal_ReferenceIdeal := by
  intro m ρ m' ρ' _ hagree
  refine ⟨fun c => Cert.Gdu.G ⟨m ((c.tc : Thread Cert.KernelIdeal.nD Cert.KernelIdeal.τ).loc Cert.KernelIdeal.main_arg3), m ((c.tc : Thread Cert.KernelIdeal.nD Cert.KernelIdeal.τ).loc Cert.KernelIdeal.main_arg4), m ((c.tc : Thread Cert.KernelIdeal.nD Cert.KernelIdeal.τ).loc Cert.KernelIdeal.main_arg5), m ((c.tc : Thread Cert.KernelIdeal.nD Cert.KernelIdeal.τ).loc Cert.KernelIdeal.main_arg6), m ((c.tc : Thread Cert.KernelIdeal.nD Cert.KernelIdeal.τ).loc Cert.KernelIdeal.main_arg7), m ((c.tc : Thread Cert.KernelIdeal.nD Cert.KernelIdeal.τ).loc Cert.KernelIdeal.main_arg8), m ((c.tc : Thread Cert.KernelIdeal.nD Cert.KernelIdeal.τ).loc Cert.KernelIdeal.main_arg9), m ((c.tc : Thread Cert.KernelIdeal.nD Cert.KernelIdeal.τ).loc Cert.KernelIdeal.main_arg10), m ((c.tc : Thread Cert.KernelIdeal.nD Cert.KernelIdeal.τ).loc Cert.KernelIdeal.main_arg11), m ((c.tc : Thread Cert.KernelIdeal.nD Cert.KernelIdeal.τ).loc Cert.KernelIdeal.main_arg12), m ((c.tc : Thread Cert.KernelIdeal.nD Cert.KernelIdeal.τ).loc Cert.KernelIdeal.main_arg13), m ((c.tc : Thread Cert.KernelIdeal.nD Cert.KernelIdeal.τ).loc Cert.KernelIdeal.main_arg14), m ((c.tc : Thread Cert.KernelIdeal.nD Cert.KernelIdeal.τ).loc Cert.KernelIdeal.main_arg15), m ((c.tc : Thread Cert.KernelIdeal.nD Cert.KernelIdeal.τ).loc Cert.KernelIdeal.main_arg16), m ((c.tc : Thread Cert.KernelIdeal.nD Cert.KernelIdeal.τ).loc Cert.KernelIdeal.main_arg17), m ((c.tc : Thread Cert.KernelIdeal.nD Cert.KernelIdeal.τ).loc Cert.KernelIdeal.main_arg18), m ((c.tc : Thread Cert.KernelIdeal.nD Cert.KernelIdeal.τ).loc Cert.KernelIdeal.main_arg19), m ((c.tc : Thread Cert.KernelIdeal.nD Cert.KernelIdeal.τ).loc Cert.KernelIdeal.main_arg20), m ((c.tc : Thread Cert.KernelIdeal.nD Cert.KernelIdeal.τ).loc Cert.KernelIdeal.main_arg21), m ((c.tc : Thread Cert.KernelIdeal.nD Cert.KernelIdeal.τ).loc Cert.KernelIdeal.main_arg22), m ((c.tc : Thread Cert.KernelIdeal.nD Cert.KernelIdeal.τ).loc Cert.KernelIdeal.main_arg23), m ((c.tc : Thread Cert.KernelIdeal.nD Cert.KernelIdeal.τ).loc Cert.KernelIdeal.main_arg24), m ((c.tc : Thread Cert.KernelIdeal.nD Cert.KernelIdeal.τ).loc Cert.KernelIdeal.main_arg25), m ((c.tc : Thread Cert.KernelIdeal.nD Cert.KernelIdeal.τ).loc Cert.KernelIdeal.main_arg26)⟩
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), Cert.Gdu.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v104_eq, Cert.Gdu.Ref.ref_is_G]
  obtain ⟨a0, a1, a2, a3, a4, a5, a6, a7, a8, a9, a10, a11, a12, a13, a14, a15, a16, a17, a18, a19, a20, a21, a22, a23, a24, a25, a26⟩ := hagree c
  rw [a0, a1, a2, a3, a4, a5, a6, a7, a8, a9, a10, a11, a12, a13, a14, a15, a16, a17, a18, a19, a20, a21, a22, a23, a24, a25, a26]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
